-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000x1 : Shape := ⟨2, ![1600000, 1]⟩
abbrev S1600000 : Shape := ⟨1, ![1600000]⟩
abbrev S129x64 : Shape := ⟨2, ![129, 64]⟩
abbrev S64 : Shape := ⟨1, ![64]⟩
abbrev S64x64 : Shape := ⟨2, ![64, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000x1 : S_.BroadcastsInDim S1600000x1 (![] : Fin 0 → Fin S1600000x1.rank)
  reducesTo_S1600000x1_S_d0_1 : S1600000x1.ReducesTo [0, 1] S_
  bcast_S_S129x64 : S_.BroadcastsInDim S129x64 (![] : Fin 0 → Fin S129x64.rank)
  reducesTo_S129x64_S_d0_1 : S129x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg6 : FVec F S64x64 .f32) (main_arg7 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x64 .f32) (main_arg1 : FVec F S1600000x1 .f32) (main_arg2 : IVec S1600000 32) (main_arg3 : IVec S1600000 32) (main_arg4 : FVec F S129x64 .f32) (main_arg5 : FVec F S64 .f32) (main_arg6 : FVec F S64x64 .f32) (main_arg7 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000x1 .f32 := Host.absf main_arg1
  let main_cst_0 : FVec F S_ .f32 := constant S_ .f32 0x7F800000#32
  let main_v5 : FVec F S1600000x1 .f32 := broadcastInDim S1600000x1 ![] bcast_S_S1600000x1 main_cst_0
  let main_v6 : IVec S1600000x1 1 := cmpf .olt main_v4 main_v5
  let main_c_1 : IVec S_ 1 := constantI S_ 1 1#1
  let main_v7 : IVec S_ 1 := (fun x v => Host.reduce IntOp.andi x v reducesTo_S1600000x1_S_d0_1 h_S_) main_v6 main_c_1
  let main_v8 : IVec S_ 1 := andi main_v3 main_v7
  let main_v9 : FVec F S129x64 .f32 := Host.absf main_arg4
  let main_cst_2 : FVec F S_ .f32 := constant S_ .f32 0x7F800000#32
  let main_v10 : FVec F S129x64 .f32 := broadcastInDim S129x64 ![] bcast_S_S129x64 main_cst_2
  let main_v11 : IVec S129x64 1 := cmpf .olt main_v9 main_v10
  let main_c_3 : IVec S_ 1 := constantI S_ 1 1#1
  let main_v12 : IVec S_ 1 := (fun x v => Host.reduce IntOp.andi x v reducesTo_S129x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_v13 main_v16
-- ==== Kernel.lean ====
abbrev S100000x64 : Shape := ⟨2, ![100000, 64]⟩
abbrev S1600000x1 : Shape := ⟨2, ![1600000, 1]⟩
abbrev S1600000 : Shape := ⟨1, ![1600000]⟩
abbrev S129x64 : Shape := ⟨2, ![129, 64]⟩
abbrev S64 : Shape := ⟨1, ![64]⟩
abbrev S64x64 : Shape := ⟨2, ![64, 64]⟩
abbrev S_ : Shape := ⟨0, ![]⟩
abbrev S1600000x64 : Shape := ⟨2, ![1600000, 64]⟩
abbrev S1600000x129 : Shape := ⟨2, ![1600000, 129]⟩
abbrev S1x64 : Shape := ⟨2, ![1, 64]⟩
abbrev S6400x129 : Shape := ⟨2, ![6400, 129]⟩
abbrev S6400x64 : Shape := ⟨2, ![6400, 64]⟩

abbrev nBuf : Space → Nat
  | .hbm => 34
  | .vmem => 8
  | .smem => 0
  | _ => 0

abbrev bufTy : (tb : Table) → Fin (tcTables nBuf tb) → BufTy
  | .hbm, ⟨0, _⟩ => ⟨S100000x64, .f32⟩
  | .hbm, ⟨1, _⟩ => ⟨S1600000x1, .f32⟩
  | .hbm, ⟨2, _⟩ => ⟨S1600000, .i32⟩
  | .hbm, ⟨3, _⟩ => ⟨S1600000, .i32⟩
  | .hbm, ⟨4, _⟩ => ⟨S129x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x64, .f32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x64, .f32⟩
  | .hbm, ⟨26, _⟩ => ⟨S1600000x129, .f32⟩
  | .hbm, ⟨27, _⟩ => ⟨S1x64, .f32⟩
  | .hbm, ⟨28, _⟩ => ⟨S1x64, .f32⟩
  | .hbm, ⟨29, _⟩ => ⟨S1600000x64, .f32⟩
  | .hbm, ⟨30, _⟩ => ⟨S_, .f32⟩
  | .hbm, ⟨31, _⟩ => ⟨S100000x64, .f32⟩
  | .hbm, ⟨32, _⟩ => ⟨S1600000x1, .i32⟩
  | .hbm, ⟨33, _⟩ => ⟨S100000x64, .f32⟩
  | .local _ .vmem, ⟨0, _⟩ => ⟨S6400x129, .f32⟩
  | .local _ .vmem, ⟨1, _⟩ => ⟨S6400x129, .f32⟩
  | .local _ .vmem, ⟨2, _⟩ => ⟨S129x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S6400x64, .f32⟩
  | .local _ .vmem, ⟨7, _⟩ => ⟨S6400x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x129 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S129x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S6400x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x64_S1600000x64_S1600000x1_S1600000x129_d1 : Shape.Concatenates [S1600000x64, S1600000x64, S1600000x1] S1600000x129 1
  shapeCasts_S64_S1x64 : S64.ShapeCasts S1x64
  inb_S6400x129_S6400x129_0_0 : ∀ a, (![0, 0] : Fin 2 → Nat) a + S6400x129.size a ≤ S6400x129.size a
  h_S6400x129 : 0 < S6400x129.numel
  shapeCasts_S6400x129_S6400x129 : S6400x129.ShapeCasts S6400x129
  bitsLt_bf16_f32 : FTy.bits .bf16 < FTy.bits .f32
  inb_S129x64_S129x64_0_0 : ∀ a, (![0, 0] : Fin 2 → Nat) a + S129x64.size a ≤ S129x64.size a
  h_S129x64 : 0 < S129x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S6400x64 : S1x64.Broadcasts S6400x64
  inb_S64x64_S64x64_0_0 : ∀ a, (![0, 0] : Fin 2 → Nat) a + S64x64.size a ≤ S64x64.size a
  h_S64x64 : 0 < S64x64.numel
  inb_S6400x64_S6400x64_0_0 : ∀ a, (![0, 0] : Fin 2 → Nat) a + S6400x64.size a ≤ S6400x64.size a
  h_S6400x64 : 0 < S6400x64.numel
  bcast_S_S100000x64 : S_.BroadcastsInDim S100000x64 (![] : Fin 0 → Fin S100000x64.rank)
  gather_S100000x64_S1600000x1_S1600000x64_1_0_n_n_0_1_164_wf : GatherDims.WF S100000x64 S1600000x1 S1600000x64 [1] [0] [] [0] [] 1 ![1, 64]
  dot_S6400x129_S129x64_S6400x64_1_0_0_1_n_n_wf : DotDims.WF S6400x129 S129x64 S6400x64 [1] [0] [0] [1] [] []
  dot_S6400x64_S64x64_S6400x64_1_0_0_1_n_n_wf : DotDims.WF S6400x64 S64x64 S6400x64 [1] [0] [0] [1] [] []
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x129.size a ≤ S1600000x129.size a
  hwx0_0 : ∀ i : grid0.Coords, EltTy.bits .f32 = 32 ∨ (Rect.block (s := S1600000x129) S6400x129.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S129x64.size a ≤ S129x64.size a
  hwx0_1 : ∀ i : grid0.Coords, EltTy.bits .f32 = 32 ∨ (Rect.block (s := S129x64) S129x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S6400x64.size a ≤ S1600000x64.size a
  hwx0_5 : ∀ i : grid0.Coords, EltTy.bits .f32 = 32 ∨ (Rect.block (s := S1600000x64) S6400x64.size (cc0_transform_5 i) (hinb0_5 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S6400x129_S129x64_S6400x64_1_0_0_1_n_n : DotDims S6400x129 S129x64 S6400x64 where
  lhsContracting := [1]
  rhsContracting := [0]
  lhsNonContracting := [0]
  rhsNonContracting := [1]
  lhsBatch := []
  rhsBatch := []
  wf := dot_S6400x129_S129x64_S6400x64_1_0_0_1_n_n_wf
def dot_S6400x64_S64x64_S6400x64_1_0_0_1_n_n : DotDims S6400x64 S64x64 S6400x64 where
  lhsContracting := [1]
  rhsContracting := [0]
  lhsNonContracting := [0]
  rhsNonContracting := [1]
  lhsBatch := []
  rhsBatch := []
  wf := dot_S6400x64_S64x64_S6400x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_v14) S6400x129.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S129x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S6400x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x64 : Shape := ⟨2, ![100000, 64]⟩
abbrev S1600000x1 : Shape := ⟨2, ![1600000, 1]⟩
abbrev S1600000 : Shape := ⟨1, ![1600000]⟩
abbrev S129x64 : Shape := ⟨2, ![129, 64]⟩
abbrev S64 : Shape := ⟨1, ![64]⟩
abbrev S64x64 : Shape := ⟨2, ![64, 64]⟩
abbrev S_ : Shape := ⟨0, ![]⟩
abbrev S1600000x64 : Shape := ⟨2, ![1600000, 64]⟩
abbrev S1600000x129 : Shape := ⟨2, ![1600000, 129]⟩
abbrev S1x64 : Shape := ⟨2, ![1, 64]⟩

abbrev nBuf : Space → Nat
  | .hbm => 42
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000x1, .f32⟩
  | .hbm, ⟨2, _⟩ => ⟨S1600000, .i32⟩
  | .hbm, ⟨3, _⟩ => ⟨S1600000, .i32⟩
  | .hbm, ⟨4, _⟩ => ⟨S129x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x64, .f32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x64, .f32⟩
  | .hbm, ⟨26, _⟩ => ⟨S1600000x129, .f32⟩
  | .hbm, ⟨27, _⟩ => ⟨S1600000x64, .f32⟩
  | .hbm, ⟨28, _⟩ => ⟨S1x64, .f32⟩
  | .hbm, ⟨29, _⟩ => ⟨S1600000x64, .f32⟩
  | .hbm, ⟨30, _⟩ => ⟨S1600000x64, .f32⟩
  | .hbm, ⟨31, _⟩ => ⟨S_, .f32⟩
  | .hbm, ⟨32, _⟩ => ⟨S1600000x64, .f32⟩
  | .hbm, ⟨33, _⟩ => ⟨S1600000x64, .f32⟩
  | .hbm, ⟨34, _⟩ => ⟨S1600000x64, .f32⟩
  | .hbm, ⟨35, _⟩ => ⟨S1x64, .f32⟩
  | .hbm, ⟨36, _⟩ => ⟨S1600000x64, .f32⟩
  | .hbm, ⟨37, _⟩ => ⟨S1600000x64, .f32⟩
  | .hbm, ⟨38, _⟩ => ⟨S_, .f32⟩
  | .hbm, ⟨39, _⟩ => ⟨S100000x64, .f32⟩
  | .hbm, ⟨40, _⟩ => ⟨S1600000x1, .i32⟩
  | .hbm, ⟨41, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call0_cst : Ref sig .tc := ⟨.hbm, 31, rfl⟩
abbrev main_call0_v0 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x64_S1600000x64_S1600000x1_S1600000x129_d1 : Shape.Concatenates [S1600000x64, S1600000x64, S1600000x1] S1600000x129 1
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S_S100000x64 : S_.BroadcastsInDim S100000x64 (![] : Fin 0 → Fin S100000x64.rank)
  gather_S100000x64_S1600000x1_S1600000x64_1_0_n_n_0_1_164_wf : GatherDims.WF S100000x64 S1600000x1 S1600000x64 [1] [0] [] [0] [] 1 ![1, 64]
  dot_S1600000x129_S129x64_S1600000x64_1_0_0_1_n_n_wf : DotDims.WF S1600000x129 S129x64 S1600000x64 [1] [0] [0] [1] [] []
  dot_S1600000x64_S64x64_S1600000x64_1_0_0_1_n_n_wf : DotDims.WF S1600000x64 S64x64 S1600000x64 [1] [0] [0] [1] [] []
  scatter_S100000x64_S1600000x1_S1600000x64_1_0_0_1_wf : ScatterDims.WF S100000x64 S1600000x1 S1600000x64 [1] [0] [0] 1

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x129_S129x64_S1600000x64_1_0_0_1_n_n : DotDims S1600000x129 S129x64 S1600000x64 where
  lhsContracting := [1]
  rhsContracting := [0]
  lhsNonContracting := [0]
  rhsNonContracting := [1]
  lhsBatch := []
  rhsBatch := []
  wf := dot_S1600000x129_S129x64_S1600000x64_1_0_0_1_n_n_wf
def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.AroundBits.lean ====
/-
  The program's run around its one region, at any float instance.

  The host operations before the region turn the two index vectors into row numbers, gather the two end points' node
  features for every edge, join them with the edge's own feature into the [1600000, 129] feature array, and lay each
  bias vector out as a [1, 64] row. The region walks 250 grid points; point t stages rows 6400 t … 6400 t + 6399 of the
  feature array, the two weight matrices and the two bias rows whole (they do not move with the point), runs the body
  on the staged blocks, and writes the [6400, 64] block it stored back to rows 6400 t … of the message array. The host
  operations after the region add every message into the row of its destination node.

  Here: what the region finds in each array (the fold of the host operations before it over the launch memory), the
  body's triple (its one store covers the output block, so the block after the body is the stored value, a pure
  function of the five loaded blocks), the proof data the launch theorem asks for, the body obligation at a generic
  point, the run of the whole program, and the frame: the eight argument arrays end as launched, because no host
  operation writes an argument and the region writes only the message array.
-/
import proofs.«127212_j79216376807661_1_alg».proof.Proof.Gen.Kernel.Launch
import proofs.«127212_j79216376807661_1_alg».proof.Proof.Gen.Kernel.Skeleton
import proofs.«127212_j79216376807661_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership of an index in a rectangle of 6400 rows is looked at once per coordinate of the long axis
set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffer contents when the region is entered: the launch memory after the host operations before the region. -/
abbrev entry₀ (c : Dev nD) : Valuation τ sig (Elt F) := StableHlo.after (List.flatten [hostOps0]) (fun b => m (c, b))
/-- The same, read at a TensorCore reference. -/
abbrev entry (c : Dev nD) (b : Ref sig .tc) : Buf (Elt F) ((c : Thread nD τ).loc b) := entry₀ m c (Proc.devRef .tc b)

/-- The host operations allocate nothing. -/
theorem before_fresh : (hostOps0 : List (HloOp τ sig (Elt F))).Forall fun op => op.fresh = ∅ := by
  simp only [List.Forall]; repeat' constructor
theorem after_fresh : (hostOps1 : List (HloOp τ sig (Elt F))).Forall fun op => op.fresh = ∅ := by
  simp only [List.Forall]; repeat' constructor

/-- @main is the host operations before the region, the region, and the host operations after it: it reduces to the
    region entered at `entry` and continued by the later operations. -/
theorem main_around (𝒱₀ : Variants) : Pipeline.HMainK (Ix := Unit) (Name := ℕ) (U := UR sig nD τ) (Lvl := ℕ) cfgs 0 defs₀ 𝒱₀ m (main (F := F)) (entry m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact before_fresh) main_chain

/-- The operations after the region touch unscoped TensorCore buffers only, -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocate nothing, -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp after_fresh) op hop
/-- and write none of the six arrays the region stages (each writes its own result buffer). -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro w; fin_cases w <;> simp only [StableHlo.nullary_writes, StableHlo.unary_writes, StableHlo.binary_writes, StableHlo.ternary_writes, StableHlo.nary_writes, StableHlo.reshape_writes, Finset.mem_singleton] <;> exact StableHlo.devRef_ne_of_ne (by decide)

/-- No host operation before the region writes the buffer `b`, when `b` is none of their 21 result buffers. -/
local macro "before_keeps" : tactic => `(tactic| (
  refine StableHlo.after_of_forall_not_mem _ _ (List.forall_iff_forall_mem.mp ?_)
  simp only [hostOps0, List.flatten_cons, List.flatten_nil, List.append_nil, List.cons_append,
    List.nil_append, List.Forall, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)))

/-- Each argument array is found by the region as launched. -/
theorem entry_arg0 (c : Dev nD) : entry m c main_arg0 = m ((c : Thread nD τ).loc main_arg0) := by before_keeps
theorem entry_arg1 (c : Dev nD) : entry m c main_arg1 = m ((c : Thread nD τ).loc main_arg1) := by before_keeps
theorem entry_arg2 (c : Dev nD) : entry m c main_arg2 = m ((c : Thread nD τ).loc main_arg2) := by before_keeps
theorem entry_arg3 (c : Dev nD) : entry m c main_arg3 = m ((c : Thread nD τ).loc main_arg3) := by before_keeps
theorem entry_arg4 (c : Dev nD) : entry m c main_arg4 = m ((c : Thread nD τ).loc main_arg4) := by before_keeps
theorem entry_arg5 (c : Dev nD) : entry m c main_arg5 = m ((c : Thread nD τ).loc main_arg5) := by before_keeps
theorem entry_arg6 (c : Dev nD) : entry m c main_arg6 = m ((c : Thread nD τ).loc main_arg6) := by before_keeps
theorem entry_arg7 (c : Dev nD) : entry m c main_arg7 = m ((c : Thread nD τ).loc main_arg7) := by before_keeps

/-- What a buffer that is no staged array and no result of a later operation holds after the operations after the
    region: what the region found in it. -/
local macro "tail_keeps_at" b:term : tactic => `(tactic| (
  unfold Pipeline.afterTail₀
  rw [StableHlo.after_of_forall_not_mem (b := Proc.devRef .tc $b) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.nary_writes, StableHlo.reshape_writes, Finset.mem_singleton]
      repeat' apply And.intro
      all_goals exact StableHlo.devRef_ne_of_ne (by decide))),
    Pipeline.withArrays_of_ne _ _ _ _ $b (by exact (by decide : ∀ w, Pipeline.arrRef spec0 w ≠ $b))]))

variable (dats : (p : Fin 1) → (c : Dev nD) → Dat τ (Elt F) Unit ℕ (UR sig nD τ) ℕ (cfgs p) c)

/-- The argument arrays no window stages end, after the later operations, as launched. -/
theorem final_arg0 (c : Dev nD) : Pipeline.afterTail₀ cfgs dats 0 (entry₀ m) [hostOps1] c main_arg0 = m ((c : Thread nD τ).loc main_arg0) := by
  tail_keeps_at main_arg0; exact entry_arg0 m c
theorem final_arg1 (c : Dev nD) : Pipeline.afterTail₀ cfgs dats 0 (entry₀ m) [hostOps1] c main_arg1 = m ((c : Thread nD τ).loc main_arg1) := by
  tail_keeps_at main_arg1; exact entry_arg1 m c
theorem final_arg2 (c : Dev nD) : Pipeline.afterTail₀ cfgs dats 0 (entry₀ m) [hostOps1] c main_arg2 = m ((c : Thread nD τ).loc main_arg2) := by
  tail_keeps_at main_arg2; exact entry_arg2 m c
theorem final_arg3 (c : Dev nD) : Pipeline.afterTail₀ cfgs dats 0 (entry₀ m) [hostOps1] c main_arg3 = m ((c : Thread nD τ).loc main_arg3) := by
  tail_keeps_at main_arg3; exact entry_arg3 m c
theorem final_arg5 (c : Dev nD) : Pipeline.afterTail₀ cfgs dats 0 (entry₀ m) [hostOps1] c main_arg5 = m ((c : Thread nD τ).loc main_arg5) := by
  tail_keeps_at main_arg5; exact entry_arg5 m c
theorem final_arg7 (c : Dev nD) : Pipeline.afterTail₀ cfgs dats 0 (entry₀ m) [hostOps1] c main_arg7 = m ((c : Thread nD τ).loc main_arg7) := by
  tail_keeps_at main_arg7; exact entry_arg7 m c

/-! ## The windows' blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

section Staged
variable {m}
variable {c : Dev nD} (dat : Dat τ (Elt F) Unit ℕ (UR sig nD τ) ℕ cfg0 c)

/-- An input window's current staging buffer holds its block at every point, fetched there or not (unfetched, the
    block index has not moved since the point that fetched it), for any proof data whose array is the region-entry
    contents and whose body leaves the block in place. -/
theorem staged_0 (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem staged_1 (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem staged_2 (hA : dat.A 2 = entry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem staged_3 (hA : dat.A 3 = entry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem staged_4 (hA : dat.A 4 = entry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

end Staged

/-! ## The frame from a run -/

/-- In a state the launch theorem's post describes, for any proof data whose arrays are the region-entry contents, each
    argument array is as launched. The two weight matrices are staged arrays the region only reads (an input array ends
    at its entry contents); the other six arguments are buffers the region does not stage, which end as the later
    operations leave them, and those write none of them. -/
theorem kept_of_post
    (hA : ∀ c w, (dats 0 c).A w = entry m c (Pipeline.arrRef spec0 w))
    (r : PUnit × MemSt nD τ sig (Elt F))
    (h : Pipeline.FramePost cfgs dats 0 (Pipeline.afterTail₀ cfgs dats 0 (entry₀ m) [hostOps1]) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
    ⟨((h c).2 main_arg0 (Pipeline.mem_restRefs_of main_arg0 (by decide) (by decide))).trans (final_arg0 m dats c),
     ((h c).2 main_arg1 (Pipeline.mem_restRefs_of main_arg1 (by decide) (by decide))).trans (final_arg1 m dats c),
     ((h c).2 main_arg2 (Pipeline.mem_restRefs_of main_arg2 (by decide) (by decide))).trans (final_arg2 m dats c),
     ((h c).2 main_arg3 (Pipeline.mem_restRefs_of main_arg3 (by decide) (by decide))).trans (final_arg3 m dats c),
     ((h c).1 1).trans (((dats 0 c).arrAt_in 1 rfl _).trans ((hA c 1).trans (entry_arg4 m c))),
     ((h c).2 main_arg5 (Pipeline.mem_restRefs_of main_arg5 (by decide) (by decide))).trans (final_arg5 m dats c),
     ((h c).1 3).trans (((dats 0 c).arrAt_in 3 rfl _).trans ((hA c 3).trans (entry_arg6 m c))),
     ((h c).2 main_arg7 (Pipeline.mem_restRefs_of main_arg7 (by decide) (by decide))).trans (final_arg7 m dats c)⟩

/-- From a run to the launch theorem's post: the frame. -/
theorem frame_of_run
    (hA : ∀ c w, (dats 0 c).A w = entry m c (Pipeline.arrRef spec0 w))
    (h : θ_run defs (onTc (τ := τ) (main (F := F))) (s₀ m ρ) (Pipeline.FramePost cfgs dats 0 (Pipeline.afterTail₀ cfgs dats 0 (entry₀ m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => kept_of_post m dats hA r h c) h

/-! ## The body -/

/-- The body's accesses: each block whole. -/
abbrev boxX : Rect S6400x129 := Rect.unit (s := S6400x129) ![0, 0] S6400x129.size inb_S6400x129_S6400x129_0_0
abbrev boxW1 : Rect S129x64 := Rect.unit (s := S129x64) ![0, 0] S129x64.size inb_S129x64_S129x64_0_0
abbrev boxB : Rect S1x64 := Rect.unit (s := S1x64) ![0, 0] S1x64.size inb_S1x64_S1x64_0_0
abbrev boxW2 : Rect S64x64 := Rect.unit (s := S64x64) ![0, 0] S64x64.size inb_S64x64_S64x64_0_0
abbrev boxOut : Rect S6400x64 := Rect.unit (s := S6400x64) ![0, 0] S6400x64.size inb_S6400x64_S6400x64_0_0

/-- The output block after the body, from the five input blocks: the one store's value laid over the whole block. -/
def stored (x0 : Vec F S6400x129 .f32) (x1 : Vec F S129x64 .f32) (x2 : Vec F S1x64 .f32) (x3 : Vec F S64x64 .f32) (x4 : Vec F S1x64 .f32) :
    Vec F S6400x64 .f32 :=
  View.canon [⟨boxOut, k0_pay1 (View.ld x0 boxX) (View.ld x1 boxW1) (View.ld x2 boxB) (View.ld x3 boxW2) (View.ld x4 boxB)⟩]

/-- The one store is of the whole block, so it covers it. -/
theorem stored_covers (p0 : Vec F S6400x64 .f32) (y : S6400x64.Idx) :
    ∃ pc ∈ ([⟨boxOut, p0⟩] : List (View.Piece (Elt F) S6400x64 .f32)), y ∈ pc.1.set :=
  View.cover_of_tiled [⟨boxOut, p0⟩] S6400x64.size (by rfl) y

set_option maxHeartbeats 1000000 in
/-- The body on whole staging memrefs, the five inputs' at contents `x0 … x4` and the output's at anything, runs to the
    continuation with the inputs' as they were and the output's at `stored x0 … x4`: it loads the six blocks, computes,
    and stores once over the whole output block. -/
theorem body_triple (c : Dev nD) (E : Set ℕ) (i : grid0.Coords)
    (arg1 : Memref sig .tc .vmem S6400x129 .f32) (harg1 : arg1.IsWhole) (arg2 : Memref sig .tc .vmem S129x64 .f32) (harg2 : arg2.IsWhole)
    (arg3 : Memref sig .tc .vmem S1x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S6400x64 .f32) (harg6 : arg6.IsWhole)
    (x0 : Vec F S6400x129 .f32) (x1 : Vec F S129x64 .f32) (x2 : Vec F S1x64 .f32) (x3 : Vec F S64x64 .f32) (x4 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (stored x0 x1 x2 x3 x4)) -∗ K ⟨⟩))
      ⊢ wp frame (wpE (defs₀ (F := F)) Variants.none c none) E (cc0__mlp_kernel i arg1 harg1 arg2 harg2 arg3 harg3 arg4 harg4 arg5 harg5 arg6 harg6) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (stored_covers _)

/-! ## The proof data -/

/-- The region's proof data on core `c`: the arrays as the region finds them; after the body at point `t` each input's
    staging buffer still at its block and the output's at `stored` of the five input blocks; the invariant is the rest
    of the core's scoped state, which the body does not touch; nothing is owed and every share is whole. -/
def regionData (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => stored (blockAt m c 0 t) (blockAt m c 1 t) (blockAt m c 2 t) (blockAt m c 3 t) (blockAt m c 4 t)
  Φ _ := Pipeline.ΦA spec0 c
  q _ := fullShare
  owed _ := 0

/-- Its arrays are the region-entry contents (the definition projected; the fold `entry` is never opened for it). -/
theorem regionData_A (c : Dev nD) (w : Fin cfg0.W) : (regionData m 0 c).A w = entry m c (Pipeline.arrRef spec0 w) := by
  dsimp only [regionData]

/-- What the body leaves, window by window. -/
theorem after_0 (c : Dev nD) (t : Fin cfg0.N) : (regionData m 0 c).after 0 t = blockAt m c 0 t := by dsimp only [regionData]
theorem after_1 (c : Dev nD) (t : Fin cfg0.N) : (regionData m 0 c).after 1 t = blockAt m c 1 t := by dsimp only [regionData]
theorem after_2 (c : Dev nD) (t : Fin cfg0.N) : (regionData m 0 c).after 2 t = blockAt m c 2 t := by dsimp only [regionData]
theorem after_3 (c : Dev nD) (t : Fin cfg0.N) : (regionData m 0 c).after 3 t = blockAt m c 3 t := by dsimp only [regionData]
theorem after_4 (c : Dev nD) (t : Fin cfg0.N) : (regionData m 0 c).after 4 t = blockAt m c 4 t := by dsimp only [regionData]
theorem after_5 (c : Dev nD) (t : Fin cfg0.N) : (regionData m 0 c).after 5 t
    = stored (blockAt m c 0 t) (blockAt m c 1 t) (blockAt m c 2 t) (blockAt m c 3 t) (blockAt m c 4 t) := by dsimp only [regionData]

/-- Each input's current staging buffer holds its block at every point. -/
theorem before_0 (c : Dev nD) (t : Fin cfg0.N) (d) : (regionData m 0 c).before 0 t d = blockAt m c 0 t :=
  staged_0 (regionData m 0 c) (regionData_A m c 0) (after_0 m c) t d
theorem before_1 (c : Dev nD) (t : Fin cfg0.N) (d) : (regionData m 0 c).before 1 t d = blockAt m c 1 t :=
  staged_1 (regionData m 0 c) (regionData_A m c 1) (after_1 m c) t d
theorem before_2 (c : Dev nD) (t : Fin cfg0.N) (d) : (regionData m 0 c).before 2 t d = blockAt m c 2 t :=
  staged_2 (regionData m 0 c) (regionData_A m c 2) (after_2 m c) t d
theorem before_3 (c : Dev nD) (t : Fin cfg0.N) (d) : (regionData m 0 c).before 3 t d = blockAt m c 3 t :=
  staged_3 (regionData m 0 c) (regionData_A m c 3) (after_3 m c) t d
theorem before_4 (c : Dev nD) (t : Fin cfg0.N) (d) : (regionData m 0 c).before 4 t d = blockAt m c 4 t :=
  staged_4 (regionData m 0 c) (regionData_A m c 4) (after_4 m c) t d

/-! ## The body obligation at a generic point -/

/-- What the body is called with at point `t`, the windows one by one, -/
def pointPre (c : Dev nD) (t : Fin cfg0.N) : sProp 𝕄 :=
  iprop((regionData m 0 c).Φ t.castSucc ∗ (regionData m 0 c).owesAt () t.castSucc
    ∗ (∃ d, owns (c : Thread nD τ) (st0_0 t) fullShare ((regionData m 0 c).before 0 t d))
    ∗ (∃ d, owns (c : Thread nD τ) (st0_1 t) fullShare ((regionData m 0 c).before 1 t d))
    ∗ (∃ d, owns (c : Thread nD τ) (st0_2 t) fullShare ((regionData m 0 c).before 2 t d))
    ∗ (∃ d, owns (c : Thread nD τ) (st0_3 t) fullShare ((regionData m 0 c).before 3 t d))
    ∗ (∃ d, owns (c : Thread nD τ) (st0_4 t) fullShare ((regionData m 0 c).before 4 t d))
    ∗ (∃ d, owns (c : Thread nD τ) (st0_5 t) fullShare ((regionData m 0 c).before 5 t d)))

/-- and what it returns. -/
def pointPost (c : Dev nD) (t : Fin cfg0.N) : sProp 𝕄 :=
  iprop((regionData m 0 c).Φ t.succ ∗ (regionData m 0 c).owesAt () t.succ
    ∗ owns (c : Thread nD τ) (st0_0 t) fullShare ((regionData m 0 c).after 0 t)
    ∗ owns (c : Thread nD τ) (st0_1 t) fullShare ((regionData m 0 c).after 1 t)
    ∗ owns (c : Thread nD τ) (st0_2 t) fullShare ((regionData m 0 c).after 2 t)
    ∗ owns (c : Thread nD τ) (st0_3 t) fullShare ((regionData m 0 c).after 3 t)
    ∗ owns (c : Thread nD τ) (st0_4 t) fullShare ((regionData m 0 c).after 4 t)
    ∗ owns (c : Thread nD τ) (st0_5 t) fullShare ((regionData m 0 c).after 5 t))

/-- The body at any point: the inputs' memrefs hold their blocks, so the body's triple applies; the invariant and
    the core's debts pass through unread. -/
theorem body_at (c : Dev nD) (t : Fin cfg0.N) :
    pointPre m c t ⊢ wp frame (wpE (defs₀ (F := F)) Variants.none c none) Set.univ (bodyAt0 t) (fun _ => pointPost m c t) := by
  unfold pointPre pointPost bodyAt0
  simp only [before_0, before_1, before_2, before_3, before_4]
  rw [show (regionData m 0 c).Φ t.succ = (regionData m 0 c).Φ t.castSucc from rfl,
    show (regionData m 0 c).owesAt () t.succ = (regionData m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (body_triple c Set.univ (grid0.coords t) _ _ _ _ _ _ _ _ _ _ _ _ (blockAt m c 0 t) (blockAt m c 1 t) (blockAt m c 2 t) (blockAt m c 3 t) (blockAt m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The launch theorem's body obligation, at every point. -/
theorem body_obligation (c : Dev nD) : BodyObligation (regionData (F := F) m 0 c) (defs₀ (F := F)) Variants.none () Set.univ := fun t => by
  rw [bigSep_W0, bigSep_W0]
  exact body_at m c t

/-! ## The run and the frame -/

-- the launch theorem's implicit arguments are found by unifying its conclusion with this one, which takes unfolding
-- plain definitions in a metavariable's type
set_option backward.isDefEq.respectTransparency.types false in
/-- For any values, from any memory with zero counters: every weakly fair execution of @main terminates, and in every
    final state each staged array holds what the proof data computes for it after the last point, and every other
    unscoped buffer what the operations after the region leave in it. -/
theorem run_main : θ_run defs (onTc (τ := τ) (main (F := F))) (s₀ m ρ)
    (Pipeline.FramePost cfgs (regionData m) 0 (Pipeline.afterTail₀ cfgs (regionData m) 0 (entry₀ m) [hostOps1])) :=
  Pipeline.θ_run_frame_around cfgs (regionData m) (0 : Fin 1) launch0 defs₀ Variants.none m ρ main
    (hbody := fun c => (body_obligation m c).loose) (hshare := fun c => (regionData m 0 c).share_full fun _ => rfl)
    (howed := fun _ _ => rfl) (V₀ := entry₀ m) (opss := [hostOps1]) (hsub := tail_sub) (hfresh := tail_fresh) (hkeep := tail_keeps)
    (hmain := main_around m Variants.none) (hA := regionData_A m) (hΦ := fun _ _ => rfl)

/-- The frame: every weakly fair execution terminates, nothing faults, and the eight argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of_run m ρ (regionData m) (regionData_A m) (run_main m ρ)

end Cert.Kernel.Around

end
-- ==== Proof.AroundIdeal.lean ====
/-
  The program's run around its one region, at any float instance.

  The host operations before the region turn the two index vectors into row numbers, gather the two end points' node
  features for every edge, join them with the edge's own feature into the [1600000, 129] feature array, and lay each
  bias vector out as a [1, 64] row. The region walks 250 grid points; point t stages rows 6400 t … 6400 t + 6399 of the
  feature array, the two weight matrices and the two bias rows whole (they do not move with the point), runs the body
  on the staged blocks, and writes the [6400, 64] block it stored back to rows 6400 t … of the message array. The host
  operations after the region add every message into the row of its destination node.

  Here: what the region finds in each array (the fold of the host operations before it over the launch memory), the
  body's triple (its one store covers the output block, so the block after the body is the stored value, a pure
  function of the five loaded blocks), the proof data the launch theorem asks for, the body obligation at a generic
  point, the run of the whole program, and the frame: the eight argument arrays end as launched, because no host
  operation writes an argument and the region writes only the message array.
-/
import proofs.«127212_j79216376807661_1_alg».proof.Proof.Gen.KernelIdeal.Launch
import proofs.«127212_j79216376807661_1_alg».proof.Proof.Gen.KernelIdeal.Skeleton
import proofs.«127212_j79216376807661_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership of an index in a rectangle of 6400 rows is looked at once per coordinate of the long axis
set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffer contents when the region is entered: the launch memory after the host operations before the region. -/
abbrev entry₀ (c : Dev nD) : Valuation τ sig (Elt F) := StableHlo.after (List.flatten [hostOps0]) (fun b => m (c, b))
/-- The same, read at a TensorCore reference. -/
abbrev entry (c : Dev nD) (b : Ref sig .tc) : Buf (Elt F) ((c : Thread nD τ).loc b) := entry₀ m c (Proc.devRef .tc b)

/-- The host operations allocate nothing. -/
theorem before_fresh : (hostOps0 : List (HloOp τ sig (Elt F))).Forall fun op => op.fresh = ∅ := by
  simp only [List.Forall]; repeat' constructor
theorem after_fresh : (hostOps1 : List (HloOp τ sig (Elt F))).Forall fun op => op.fresh = ∅ := by
  simp only [List.Forall]; repeat' constructor

/-- @main is the host operations before the region, the region, and the host operations after it: it reduces to the
    region entered at `entry` and continued by the later operations. -/
theorem main_around (𝒱₀ : Variants) : Pipeline.HMainK (Ix := Unit) (Name := ℕ) (U := UR sig nD τ) (Lvl := ℕ) cfgs 0 defs₀ 𝒱₀ m (main (F := F)) (entry m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact before_fresh) main_chain

/-- The operations after the region touch unscoped TensorCore buffers only, -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocate nothing, -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp after_fresh) op hop
/-- and write none of the six arrays the region stages (each writes its own result buffer). -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro w; fin_cases w <;> simp only [StableHlo.nullary_writes, StableHlo.unary_writes, StableHlo.binary_writes, StableHlo.ternary_writes, StableHlo.nary_writes, StableHlo.reshape_writes, Finset.mem_singleton] <;> exact StableHlo.devRef_ne_of_ne (by decide)

/-- No host operation before the region writes the buffer `b`, when `b` is none of their 21 result buffers. -/
local macro "before_keeps" : tactic => `(tactic| (
  refine StableHlo.after_of_forall_not_mem _ _ (List.forall_iff_forall_mem.mp ?_)
  simp only [hostOps0, List.flatten_cons, List.flatten_nil, List.append_nil, List.cons_append,
    List.nil_append, List.Forall, StableHlo.nullary_writes, StableHlo.unary_writes, StableHlo.binary_writes, StableHlo.ternary_writes, StableHlo.nary_writes, StableHlo.reshape_writes, Finset.mem_singleton]
  repeat' apply And.intro
  all_goals exact StableHlo.devRef_ne_of_ne (by decide)))

/-- Each argument array is found by the region as launched. -/
theorem entry_arg0 (c : Dev nD) : entry m c main_arg0 = m ((c : Thread nD τ).loc main_arg0) := by before_keeps
theorem entry_arg1 (c : Dev nD) : entry m c main_arg1 = m ((c : Thread nD τ).loc main_arg1) := by before_keeps
theorem entry_arg2 (c : Dev nD) : entry m c main_arg2 = m ((c : Thread nD τ).loc main_arg2) := by before_keeps
theorem entry_arg3 (c : Dev nD) : entry m c main_arg3 = m ((c : Thread nD τ).loc main_arg3) := by before_keeps
theorem entry_arg4 (c : Dev nD) : entry m c main_arg4 = m ((c : Thread nD τ).loc main_arg4) := by before_keeps
theorem entry_arg5 (c : Dev nD) : entry m c main_arg5 = m ((c : Thread nD τ).loc main_arg5) := by before_keeps
theorem entry_arg6 (c : Dev nD) : entry m c main_arg6 = m ((c : Thread nD τ).loc main_arg6) := by before_keeps
theorem entry_arg7 (c : Dev nD) : entry m c main_arg7 = m ((c : Thread nD τ).loc main_arg7) := by before_keeps

/-- What a buffer that is no staged array and no result of a later operation holds after the operations after the
    region: what the region found in it. -/
local macro "tail_keeps_at" b:term : tactic => `(tactic| (
  unfold Pipeline.afterTail₀
  rw [StableHlo.after_of_forall_not_mem (b := Proc.devRef .tc $b) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.nary_writes, StableHlo.reshape_writes, Finset.mem_singleton]
      repeat' apply And.intro
      all_goals exact StableHlo.devRef_ne_of_ne (by decide))),
    Pipeline.withArrays_of_ne _ _ _ _ $b (by exact (by decide : ∀ w, Pipeline.arrRef spec0 w ≠ $b))]))

variable (dats : (p : Fin 1) → (c : Dev nD) → Dat τ (Elt F) Unit ℕ (UR sig nD τ) ℕ (cfgs p) c)

/-- The argument arrays no window stages end, after the later operations, as launched. -/
theorem final_arg0 (c : Dev nD) : Pipeline.afterTail₀ cfgs dats 0 (entry₀ m) [hostOps1] c main_arg0 = m ((c : Thread nD τ).loc main_arg0) := by
  tail_keeps_at main_arg0; exact entry_arg0 m c
theorem final_arg1 (c : Dev nD) : Pipeline.afterTail₀ cfgs dats 0 (entry₀ m) [hostOps1] c main_arg1 = m ((c : Thread nD τ).loc main_arg1) := by
  tail_keeps_at main_arg1; exact entry_arg1 m c
theorem final_arg2 (c : Dev nD) : Pipeline.afterTail₀ cfgs dats 0 (entry₀ m) [hostOps1] c main_arg2 = m ((c : Thread nD τ).loc main_arg2) := by
  tail_keeps_at main_arg2; exact entry_arg2 m c
theorem final_arg3 (c : Dev nD) : Pipeline.afterTail₀ cfgs dats 0 (entry₀ m) [hostOps1] c main_arg3 = m ((c : Thread nD τ).loc main_arg3) := by
  tail_keeps_at main_arg3; exact entry_arg3 m c
theorem final_arg5 (c : Dev nD) : Pipeline.afterTail₀ cfgs dats 0 (entry₀ m) [hostOps1] c main_arg5 = m ((c : Thread nD τ).loc main_arg5) := by
  tail_keeps_at main_arg5; exact entry_arg5 m c
theorem final_arg7 (c : Dev nD) : Pipeline.afterTail₀ cfgs dats 0 (entry₀ m) [hostOps1] c main_arg7 = m ((c : Thread nD τ).loc main_arg7) := by
  tail_keeps_at main_arg7; exact entry_arg7 m c

/-! ## The windows' blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

section Staged
variable {m}
variable {c : Dev nD} (dat : Dat τ (Elt F) Unit ℕ (UR sig nD τ) ℕ cfg0 c)

/-- An input window's current staging buffer holds its block at every point, fetched there or not (unfetched, the
    block index has not moved since the point that fetched it), for any proof data whose array is the region-entry
    contents and whose body leaves the block in place. -/
theorem staged_0 (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem staged_1 (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem staged_2 (hA : dat.A 2 = entry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem staged_3 (hA : dat.A 3 = entry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem staged_4 (hA : dat.A 4 = entry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

end Staged

/-! ## The frame from a run -/

/-- In a state the launch theorem's post describes, for any proof data whose arrays are the region-entry contents, each
    argument array is as launched. The two weight matrices are staged arrays the region only reads (an input array ends
    at its entry contents); the other six arguments are buffers the region does not stage, which end as the later
    operations leave them, and those write none of them. -/
theorem kept_of_post
    (hA : ∀ c w, (dats 0 c).A w = entry m c (Pipeline.arrRef spec0 w))
    (r : PUnit × MemSt nD τ sig (Elt F))
    (h : Pipeline.FramePost cfgs dats 0 (Pipeline.afterTail₀ cfgs dats 0 (entry₀ m) [hostOps1]) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
    ⟨((h c).2 main_arg0 (Pipeline.mem_restRefs_of main_arg0 (by decide) (by decide))).trans (final_arg0 m dats c),
     ((h c).2 main_arg1 (Pipeline.mem_restRefs_of main_arg1 (by decide) (by decide))).trans (final_arg1 m dats c),
     ((h c).2 main_arg2 (Pipeline.mem_restRefs_of main_arg2 (by decide) (by decide))).trans (final_arg2 m dats c),
     ((h c).2 main_arg3 (Pipeline.mem_restRefs_of main_arg3 (by decide) (by decide))).trans (final_arg3 m dats c),
     ((h c).1 1).trans (((dats 0 c).arrAt_in 1 rfl _).trans ((hA c 1).trans (entry_arg4 m c))),
     ((h c).2 main_arg5 (Pipeline.mem_restRefs_of main_arg5 (by decide) (by decide))).trans (final_arg5 m dats c),
     ((h c).1 3).trans (((dats 0 c).arrAt_in 3 rfl _).trans ((hA c 3).trans (entry_arg6 m c))),
     ((h c).2 main_arg7 (Pipeline.mem_restRefs_of main_arg7 (by decide) (by decide))).trans (final_arg7 m dats c)⟩

/-- From a run to the launch theorem's post: the frame. -/
theorem frame_of_run
    (hA : ∀ c w, (dats 0 c).A w = entry m c (Pipeline.arrRef spec0 w))
    (h : θ_run defs (onTc (τ := τ) (main (F := F))) (s₀ m ρ) (Pipeline.FramePost cfgs dats 0 (Pipeline.afterTail₀ cfgs dats 0 (entry₀ m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => kept_of_post m dats hA r h c) h

/-! ## The body -/

/-- The body's accesses: each block whole. -/
abbrev boxX : Rect S6400x129 := Rect.unit (s := S6400x129) ![0, 0] S6400x129.size inb_S6400x129_S6400x129_0_0
abbrev boxW1 : Rect S129x64 := Rect.unit (s := S129x64) ![0, 0] S129x64.size inb_S129x64_S129x64_0_0
abbrev boxB : Rect S1x64 := Rect.unit (s := S1x64) ![0, 0] S1x64.size inb_S1x64_S1x64_0_0
abbrev boxW2 : Rect S64x64 := Rect.unit (s := S64x64) ![0, 0] S64x64.size inb_S64x64_S64x64_0_0
abbrev boxOut : Rect S6400x64 := Rect.unit (s := S6400x64) ![0, 0] S6400x64.size inb_S6400x64_S6400x64_0_0

/-- The output block after the body, from the five input blocks: the one store's value laid over the whole block. -/
def stored (x0 : Vec F S6400x129 .f32) (x1 : Vec F S129x64 .f32) (x2 : Vec F S1x64 .f32) (x3 : Vec F S64x64 .f32) (x4 : Vec F S1x64 .f32) :
    Vec F S6400x64 .f32 :=
  View.canon [⟨boxOut, k0_pay1 (View.ld x0 boxX) (View.ld x1 boxW1) (View.ld x2 boxB) (View.ld x3 boxW2) (View.ld x4 boxB)⟩]

/-- The one store is of the whole block, so it covers it. -/
theorem stored_covers (p0 : Vec F S6400x64 .f32) (y : S6400x64.Idx) :
    ∃ pc ∈ ([⟨boxOut, p0⟩] : List (View.Piece (Elt F) S6400x64 .f32)), y ∈ pc.1.set :=
  View.cover_of_tiled [⟨boxOut, p0⟩] S6400x64.size (by rfl) y

set_option maxHeartbeats 1000000 in
/-- The body on whole staging memrefs, the five inputs' at contents `x0 … x4` and the output's at anything, runs to the
    continuation with the inputs' as they were and the output's at `stored x0 … x4`: it loads the six blocks, computes,
    and stores once over the whole output block. -/
theorem body_triple (c : Dev nD) (E : Set ℕ) (i : grid0.Coords)
    (arg1 : Memref sig .tc .vmem S6400x129 .f32) (harg1 : arg1.IsWhole) (arg2 : Memref sig .tc .vmem S129x64 .f32) (harg2 : arg2.IsWhole)
    (arg3 : Memref sig .tc .vmem S1x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S6400x64 .f32) (harg6 : arg6.IsWhole)
    (x0 : Vec F S6400x129 .f32) (x1 : Vec F S129x64 .f32) (x2 : Vec F S1x64 .f32) (x3 : Vec F S64x64 .f32) (x4 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (stored x0 x1 x2 x3 x4)) -∗ K ⟨⟩))
      ⊢ wp frame (wpE (defs₀ (F := F)) Variants.none c none) E (cc0__mlp_kernel i arg1 harg1 arg2 harg2 arg3 harg3 arg4 harg4 arg5 harg5 arg6 harg6) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (stored_covers _)

/-! ## The proof data -/

/-- The region's proof data on core `c`: the arrays as the region finds them; after the body at point `t` each input's
    staging buffer still at its block and the output's at `stored` of the five input blocks; the invariant is the rest
    of the core's scoped state, which the body does not touch; nothing is owed and every share is whole. -/
def regionData (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => stored (blockAt m c 0 t) (blockAt m c 1 t) (blockAt m c 2 t) (blockAt m c 3 t) (blockAt m c 4 t)
  Φ _ := Pipeline.ΦA spec0 c
  q _ := fullShare
  owed _ := 0

/-- Its arrays are the region-entry contents (the definition projected; the fold `entry` is never opened for it). -/
theorem regionData_A (c : Dev nD) (w : Fin cfg0.W) : (regionData m 0 c).A w = entry m c (Pipeline.arrRef spec0 w) := by
  dsimp only [regionData]

/-- What the body leaves, window by window. -/
theorem after_0 (c : Dev nD) (t : Fin cfg0.N) : (regionData m 0 c).after 0 t = blockAt m c 0 t := by dsimp only [regionData]
theorem after_1 (c : Dev nD) (t : Fin cfg0.N) : (regionData m 0 c).after 1 t = blockAt m c 1 t := by dsimp only [regionData]
theorem after_2 (c : Dev nD) (t : Fin cfg0.N) : (regionData m 0 c).after 2 t = blockAt m c 2 t := by dsimp only [regionData]
theorem after_3 (c : Dev nD) (t : Fin cfg0.N) : (regionData m 0 c).after 3 t = blockAt m c 3 t := by dsimp only [regionData]
theorem after_4 (c : Dev nD) (t : Fin cfg0.N) : (regionData m 0 c).after 4 t = blockAt m c 4 t := by dsimp only [regionData]
theorem after_5 (c : Dev nD) (t : Fin cfg0.N) : (regionData m 0 c).after 5 t
    = stored (blockAt m c 0 t) (blockAt m c 1 t) (blockAt m c 2 t) (blockAt m c 3 t) (blockAt m c 4 t) := by dsimp only [regionData]

/-- Each input's current staging buffer holds its block at every point. -/
theorem before_0 (c : Dev nD) (t : Fin cfg0.N) (d) : (regionData m 0 c).before 0 t d = blockAt m c 0 t :=
  staged_0 (regionData m 0 c) (regionData_A m c 0) (after_0 m c) t d
theorem before_1 (c : Dev nD) (t : Fin cfg0.N) (d) : (regionData m 0 c).before 1 t d = blockAt m c 1 t :=
  staged_1 (regionData m 0 c) (regionData_A m c 1) (after_1 m c) t d
theorem before_2 (c : Dev nD) (t : Fin cfg0.N) (d) : (regionData m 0 c).before 2 t d = blockAt m c 2 t :=
  staged_2 (regionData m 0 c) (regionData_A m c 2) (after_2 m c) t d
theorem before_3 (c : Dev nD) (t : Fin cfg0.N) (d) : (regionData m 0 c).before 3 t d = blockAt m c 3 t :=
  staged_3 (regionData m 0 c) (regionData_A m c 3) (after_3 m c) t d
theorem before_4 (c : Dev nD) (t : Fin cfg0.N) (d) : (regionData m 0 c).before 4 t d = blockAt m c 4 t :=
  staged_4 (regionData m 0 c) (regionData_A m c 4) (after_4 m c) t d

/-! ## The body obligation at a generic point -/

/-- What the body is called with at point `t`, the windows one by one, -/
def pointPre (c : Dev nD) (t : Fin cfg0.N) : sProp 𝕄 :=
  iprop((regionData m 0 c).Φ t.castSucc ∗ (regionData m 0 c).owesAt () t.castSucc
    ∗ (∃ d, owns (c : Thread nD τ) (st0_0 t) fullShare ((regionData m 0 c).before 0 t d))
    ∗ (∃ d, owns (c : Thread nD τ) (st0_1 t) fullShare ((regionData m 0 c).before 1 t d))
    ∗ (∃ d, owns (c : Thread nD τ) (st0_2 t) fullShare ((regionData m 0 c).before 2 t d))
    ∗ (∃ d, owns (c : Thread nD τ) (st0_3 t) fullShare ((regionData m 0 c).before 3 t d))
    ∗ (∃ d, owns (c : Thread nD τ) (st0_4 t) fullShare ((regionData m 0 c).before 4 t d))
    ∗ (∃ d, owns (c : Thread nD τ) (st0_5 t) fullShare ((regionData m 0 c).before 5 t d)))

/-- and what it returns. -/
def pointPost (c : Dev nD) (t : Fin cfg0.N) : sProp 𝕄 :=
  iprop((regionData m 0 c).Φ t.succ ∗ (regionData m 0 c).owesAt () t.succ
    ∗ owns (c : Thread nD τ) (st0_0 t) fullShare ((regionData m 0 c).after 0 t)
    ∗ owns (c : Thread nD τ) (st0_1 t) fullShare ((regionData m 0 c).after 1 t)
    ∗ owns (c : Thread nD τ) (st0_2 t) fullShare ((regionData m 0 c).after 2 t)
    ∗ owns (c : Thread nD τ) (st0_3 t) fullShare ((regionData m 0 c).after 3 t)
    ∗ owns (c : Thread nD τ) (st0_4 t) fullShare ((regionData m 0 c).after 4 t)
    ∗ owns (c : Thread nD τ) (st0_5 t) fullShare ((regionData m 0 c).after 5 t))

/-- The body at any point: the inputs' memrefs hold their blocks, so the body's triple applies; the invariant and
    the core's debts pass through unread. -/
theorem body_at (c : Dev nD) (t : Fin cfg0.N) :
    pointPre m c t ⊢ wp frame (wpE (defs₀ (F := F)) Variants.none c none) Set.univ (bodyAt0 t) (fun _ => pointPost m c t) := by
  unfold pointPre pointPost bodyAt0
  simp only [before_0, before_1, before_2, before_3, before_4]
  rw [show (regionData m 0 c).Φ t.succ = (regionData m 0 c).Φ t.castSucc from rfl,
    show (regionData m 0 c).owesAt () t.succ = (regionData m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (body_triple c Set.univ (grid0.coords t) _ _ _ _ _ _ _ _ _ _ _ _ (blockAt m c 0 t) (blockAt m c 1 t) (blockAt m c 2 t) (blockAt m c 3 t) (blockAt m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The launch theorem's body obligation, at every point. -/
theorem body_obligation (c : Dev nD) : BodyObligation (regionData (F := F) m 0 c) (defs₀ (F := F)) Variants.none () Set.univ := fun t => by
  rw [bigSep_W0, bigSep_W0]
  exact body_at m c t

/-! ## The run and the frame -/

-- the launch theorem's implicit arguments are found by unifying its conclusion with this one, which takes unfolding
-- plain definitions in a metavariable's type
set_option backward.isDefEq.respectTransparency.types false in
/-- For any values, from any memory with zero counters: every weakly fair execution of @main terminates, and in every
    final state each staged array holds what the proof data computes for it after the last point, and every other
    unscoped buffer what the operations after the region leave in it. -/
theorem run_main : θ_run defs (onTc (τ := τ) (main (F := F))) (s₀ m ρ)
    (Pipeline.FramePost cfgs (regionData m) 0 (Pipeline.afterTail₀ cfgs (regionData m) 0 (entry₀ m) [hostOps1])) :=
  Pipeline.θ_run_frame_around cfgs (regionData m) (0 : Fin 1) launch0 defs₀ Variants.none m ρ main
    (hbody := fun c => (body_obligation m c).loose) (hshare := fun c => (regionData m 0 c).share_full fun _ => rfl)
    (howed := fun _ _ => rfl) (V₀ := entry₀ m) (opss := [hostOps1]) (hsub := tail_sub) (hfresh := tail_fresh) (hkeep := tail_keeps)
    (hmain := main_around m Variants.none) (hA := regionData_A m) (hΦ := fun _ _ => rfl)

/-- The frame: every weakly fair execution terminates, nothing faults, and the eight argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of_run m ρ (regionData m) (regionData_A m) (run_main m ρ)

end Cert.KernelIdeal.Around

end
-- ==== Proof.EdgeMlp.lean ====
/-
  The message an edge sends: a two-layer perceptron applied to the edge's feature row.

  For a feature row x of 129 entries, a first weight matrix W1 (129 × 64) with bias b1, and a second weight matrix
  W2 (64 × 64) with bias b2, entry q of the message is

      ( Σ_k  max ( (Σ_j x_j · W1_{j,k}) + b1_k , 0 ) · W2_{k,q} )  +  b2_q

  on the extended reals: the hidden activation k is the rectified first affine form, and the message is the second
  affine form of the hidden activations. `messages` lays these out for all 1,600,000 edges: row p of the result is the
  message of row p of the feature array. Nothing here depends on a program.
-/
import Idealize.ShloMosaic.PureOps.Ideal
import Idealize.ShloMosaic.Lib.ValueIdx

noncomputable section

namespace Cert.EdgeMlp

open Idealize.ShloMosaic Idealize.ShloMosaic.ValueIdx

/-- Entry `q` of the perceptron's output on the feature row `x`. -/
def entry (x : Fin 129 → EReal) (W1 : Fin 129 → Fin 64 → EReal) (b1 : Fin 64 → EReal)
    (W2 : Fin 64 → Fin 64 → EReal) (b2 : Fin 64 → EReal) (q : Fin 64) : EReal :=
  (∑ k : Fin 64, max ((∑ j : Fin 129, x j * W1 j k) + b1 k) 0 * W2 k q) + b2 q

/-- The messages of all edges: row `p` of the result is the perceptron on row `p` of the feature array `X`. -/
def messages (X : (⟨2, ![1600000, 129]⟩ : Shape).Idx → EReal) (W1 : (⟨2, ![129, 64]⟩ : Shape).Idx → EReal)
    (b1 : (⟨1, ![64]⟩ : Shape).Idx → EReal) (W2 : (⟨2, ![64, 64]⟩ : Shape).Idx → EReal)
    (b2 : (⟨1, ![64]⟩ : Shape).Idx → EReal) : (⟨2, ![1600000, 64]⟩ : Shape).Idx → EReal :=
  fun i => entry (fun j => X (ix2 (i 0 : Fin 1600000) j)) (fun j k => W1 (ix2 j k)) (fun k => b1 (ix1 k))
    (fun k q => W2 (ix2 k q)) (fun q => b2 (ix1 q)) (i 1 : Fin 64)

/-- `messages` at the edge `p` and the output feature `q`. -/
theorem messages_apply (X : (⟨2, ![1600000, 129]⟩ : Shape).Idx → EReal) (W1 : (⟨2, ![129, 64]⟩ : Shape).Idx → EReal)
    (b1 : (⟨1, ![64]⟩ : Shape).Idx → EReal) (W2 : (⟨2, ![64, 64]⟩ : Shape).Idx → EReal)
    (b2 : (⟨1, ![64]⟩ : Shape).Idx → EReal) (p : Fin 1600000) (q : Fin 64) :
    messages X W1 b1 W2 b2 (ix2 p q)
      = entry (fun j => X (ix2 p j)) (fun j k => W1 (ix2 j k)) (fun k => b1 (ix1 k))
          (fun k q => W2 (ix2 k q)) (fun q => b2 (ix1 q)) q := rfl

end Cert.EdgeMlp

end
-- ==== Proof.LibPlainDot.lean ====
/-
  A plain matrix product read at an index, at the ideal instance.

  For a rank-2 contraction [a, K] · [K, b] → [a, b] (the left operand's axis 1 against the right operand's axis 0, no batch
  axis), the accumulate-into-zero matrix product and the host's dot_general are both, at the result index (p, q), the sum
  over k < K of lhs (p, k) · rhs (k, q): the contracted shape has one axis of extent K, so the sum over its indices is a
  sum over Fin K, and the operand indices the contraction names at (p, q) and k are (p, k) and (k, q). The four coordinate
  facts about a given dimension record (hl0, hl1, hr0, hr1) are taken as hypotheses: for a literal record each is a
  computation.
-/
import Idealize.ShloMosaic.PureOps.Ideal.Laws
import Idealize.ShloMosaic.Lib.ValueIdx

noncomputable section

namespace Cert.Lib.PlainDot

open Idealize.ShloMosaic Idealize.ShloMosaic.ValueIdx

variable {a K b : Nat} (D : DotDims (⟨2, ![a, K]⟩ : Shape) (⟨2, ![K, b]⟩ : Shape) (⟨2, ![a, b]⟩ : Shape))
  (hr : D.contr.rank = 1) (hs : D.contr.size ⟨0, by omega⟩ = K)
  (hl0 : ∀ (i : (⟨2, ![a, b]⟩ : Shape).Idx) (q : D.contr.Idx), (D.lhsIdx i q 0).val = (i 0).val)
  (hl1 : ∀ (i : (⟨2, ![a, b]⟩ : Shape).Idx) (q : D.contr.Idx), (D.lhsIdx i q 1).val = (q ⟨0, by omega⟩).val)
  (hr0 : ∀ (i : (⟨2, ![a, b]⟩ : Shape).Idx) (q : D.contr.Idx), (D.rhsIdx i q 0).val = (q ⟨0, by omega⟩).val)
  (hr1 : ∀ (i : (⟨2, ![a, b]⟩ : Shape).Idx) (q : D.contr.Idx), (D.rhsIdx i q 1).val = (i 1).val)

include hr hs hl0 hl1 hr0 hr1

/-- The sum over the contracted shape's indices of the products of the operands at the contraction's indices is the
    sum over k < K of lhs (p, k) · rhs (k, q). -/
theorem sum_contr (lhs : (⟨2, ![a, K]⟩ : Shape).Idx → EReal) (rhs : (⟨2, ![K, b]⟩ : Shape).Idx → EReal) (p : Fin a) (q : Fin b) :
    ∑ k : D.contr.Idx, lhs (D.lhsIdx (ix2 p q) k) * rhs (D.rhsIdx (ix2 p q) k) = ∑ k : Fin K, lhs (ix2 p k) * rhs (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D K hr hs).symm k) = ix2 k q := funext fun ax => Fin.ext (by
    match ax with
    | ⟨0, _⟩ => exact (hr0 _ _).trans hk
    | ⟨1, _⟩ => exact hr1 _ _)
  rw [el, er]

/-- The matrix product accumulated into the zero splat, at (p, q). -/
theorem matmul_zero_apply (prec : Option ContractPrecision) (lhs : FVec Ideal (⟨2, ![a, K]⟩ : Shape) .f32) (rhs : FVec Ideal (⟨2, ![K, b]⟩ : Shape) .f32)
    (p : Fin a) (q : Fin b) :
    matmul D prec lhs rhs (constant (⟨2, ![a, b]⟩ : Shape) .f32 0x00000000#32) (ix2 p q) = ∑ k : Fin K, lhs (ix2 p k) * rhs (ix2 k q) :=
  (Ideal.matmul_constant_zero_apply D prec lhs rhs (ix2 p q)).trans (sum_contr D hr hs hl0 hl1 hr0 hr1 lhs rhs p q)

/-- The host's dot_general, at (p, q). -/
theorem dotGeneral_apply (prec : Option ContractPrecision) (lhs : FVec Ideal (⟨2, ![a, K]⟩ : Shape) .f32) (rhs : FVec Ideal (⟨2, ![K, b]⟩ : Shape) .f32)
    (p : Fin a) (q : Fin b) :
    Host.dotGeneral D prec lhs rhs (ix2 p q) = ∑ k : Fin K, lhs (ix2 p k) * rhs (ix2 k q) :=
  (Ideal.dotGeneral_apply D prec .single lhs rhs (ix2 p q)).trans (sum_contr D hr hs hl0 hl1 hr0 hr1 lhs rhs p q)

end Cert.Lib.PlainDot

end
-- ==== Proof.LibRowRead.lean ====
/-
  Vector operations read at an index, at the ideal instance, for the shapes of a row-blocked kernel: a column
  [a, 1] broadcast along the lanes, a vector [a] cast to a column [a, 1], the sum of a row of an [a, b] block,
  four [a, 32] pieces joined along the lanes into [a, 128], and the matrix product into the zero splat for
  operands of any float format (a change of format is the identity on extended reals).
-/
import Idealize.ShloMosaic.PureOps.Ideal.Laws
import Idealize.ShloMosaic.Lib.ValueIdx
import Idealize.ShloMosaic.Lib.ValueLayout
import Idealize.ShloMosaic.Lib.Pipeline.Value
import proofs.«127212_j79216376807661_1_alg».proof.Proof.LibPlainDot

noncomputable section

namespace Cert.Lib.RowRead

open Idealize.ShloMosaic Idealize.ShloMosaic.ValueIdx

variable {α : Type}

/-- A column [a, 1] broadcast to [a, b] reads, at (p, c), the column's entry of row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [a] cast to a column [a, 1] reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The reduced index p with lane k put back is (p, k). -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- The lane sum of an [a, b] block, at row p, is the sum over the b lanes of the block's row p. -/
theorem rowSum_apply {a b : ℕ} {φ : FTy} (src : FVec Ideal (⟨2, ![a, b]⟩ : Shape) φ) (acc : BitVec φ.bits)
    (h : (⟨2, ![a, b]⟩ : Shape).Reduces [1] (⟨1, ![a]⟩ : Shape)) (hφ : FKind.Formats φ) (hacc : acc = FKind.add.neutral φ hφ) (p : Fin a) :
    multiReduction .add [1] (⟨1, ![a]⟩ : Shape) src acc h hφ hacc (ix1 p) = ∑ k : Fin b, src (ix2 p k) := by
  rw [Ideal.multiReduction_add_single]
  exact Finset.sum_congr rfl fun k _ => by rw [lift_row]; rfl

/-- Four [a, 32] pieces joined along the lanes: lane 32 k + c of the result is lane c of piece k. -/
theorem concat4_apply {a : ℕ} (x0 x1 x2 x3 : (⟨2, ![a, 32]⟩ : Shape).Idx → α)
    (h : Shape.Concatenates (([⟨(⟨2, ![a, 32]⟩ : Shape), x0⟩, ⟨(⟨2, ![a, 32]⟩ : Shape), x1⟩, ⟨(⟨2, ![a, 32]⟩ : Shape), x2⟩, ⟨(⟨2, ![a, 32]⟩ : Shape), x3⟩] :
      List ((s : Shape) × (s.Idx → α))).map (·.1)) (⟨2, ![a, 128]⟩ : Shape) 1)
    (p : Fin a) (c : Fin 32) (k : Fin 4) (q : Fin 128) (hq : q.val = 32 * k.val + c.val) :
    concatenate (⟨2, ![a, 128]⟩ : Shape) 1 [⟨(⟨2, ![a, 32]⟩ : Shape), x0⟩, ⟨(⟨2, ![a, 32]⟩ : Shape), x1⟩, ⟨(⟨2, ![a, 32]⟩ : Shape), x2⟩, ⟨(⟨2, ![a, 32]⟩ : Shape), x3⟩] h (ix2 p q)
      = (![x0, x1, x2, x3] k) (ix2 p c) := by
  have hi : ∀ b : Fin (⟨2, ![a, 32]⟩ : Shape).rank, b.cast (rfl : (⟨2, ![a, 32]⟩ : Shape).rank = (⟨2, ![a, 128]⟩ : Shape).rank) ≠ (1 : Fin 2) →
      ((ix2 p c : (⟨2, ![a, 32]⟩ : Shape).Idx) b).val = ((ix2 p q : (⟨2, ![a, 128]⟩ : Shape).Idx) (b.cast rfl)).val := by
    intro b hb
    match b with
    | ⟨0, _⟩ => rfl
    | ⟨1, _⟩ => exact absurd rfl hb
  fin_cases k
  · exact concatenate_apply_piece 1 _ h _ 0 (by simp) _ x0 rfl rfl 0 rfl (ix2 p c) hi (by show 0 + c.val = q.val; simp at hq; omega)
  · exact concatenate_apply_piece 1 _ h _ 1 (by simp) _ x1 rfl rfl 32 rfl (ix2 p c) hi (by show 32 + c.val = q.val; simp at hq; omega)
  · exact concatenate_apply_piece 1 _ h _ 2 (by simp) _ x2 rfl rfl 64 rfl (ix2 p c) hi (by show 64 + c.val = q.val; simp at hq; omega)
  · exact concatenate_apply_piece 1 _ h _ 3 (by simp) _ x3 rfl rfl 96 rfl (ix2 p c) hi (by show 96 + c.val = q.val; simp at hq; omega)

section Dot

variable {a K b : Nat} (D : DotDims (⟨2, ![a, K]⟩ : Shape) (⟨2, ![K, b]⟩ : Shape) (⟨2, ![a, b]⟩ : Shape))
  (hr : D.contr.rank = 1) (hs : D.contr.size ⟨0, by omega⟩ = K)
  (hl0 : ∀ (i : (⟨2, ![a, b]⟩ : Shape).Idx) (q : D.contr.Idx), (D.lhsIdx i q 0).val = (i 0).val)
  (hl1 : ∀ (i : (⟨2, ![a, b]⟩ : Shape).Idx) (q : D.contr.Idx), (D.lhsIdx i q 1).val = (q ⟨0, by omega⟩).val)
  (hr0 : ∀ (i : (⟨2, ![a, b]⟩ : Shape).Idx) (q : D.contr.Idx), (D.rhsIdx i q 0).val = (q ⟨0, by omega⟩).val)
  (hr1 : ∀ (i : (⟨2, ![a, b]⟩ : Shape).Idx) (q : D.contr.Idx), (D.rhsIdx i q 1).val = (i 1).val)

include hr hs hl0 hl1 hr0 hr1

/-- The matrix product into the zero splat, at (p, q), for operands of any float formats: the sum over k < K of
    lhs (p, k) · rhs (k, q). -/
theorem matmul_zero_apply {φ₁ φ₂ : FTy} (prec : Option ContractPrecision) (lhs : FVec Ideal (⟨2, ![a, K]⟩ : Shape) φ₁)
    (rhs : FVec Ideal (⟨2, ![K, b]⟩ : Shape) φ₂) (p : Fin a) (q : Fin b) :
    matmul D prec lhs rhs (constant (⟨2, ![a, b]⟩ : Shape) .f32 0x00000000#32) (ix2 p q) = ∑ k : Fin K, lhs (ix2 p k) * rhs (ix2 k q) :=
  (Ideal.matmul_constant_zero_apply D prec lhs rhs (ix2 p q)).trans
    (Cert.Lib.PlainDot.sum_contr D hr hs hl0 hl1 hr0 hr1 (fun i => lhs i) (fun i => rhs i) p q)

end Dot

end Cert.Lib.RowRead

end
-- ==== Proof.PayloadEntry.lean ====
/-
  The value the kernel's body stores, read at a row p and an output feature q: the two-layer perceptron of
  Cert.EdgeMlp on row p of the block of features.

  At the ideal instance a change of float format is the identity, a cast to the same shape is the identity, the
  matrix product into the zero splat is the plain sum of products over the contracted axis, the [1, 64] bias row
  broadcast along the rows reads the row's entry of the same lane, and the maximum with the zero splat is the
  rectifier. The hidden activation (the first affine form rectified) is stated first, because in the second
  product it sits under the sum's binder.
-/
import proofs.«127212_j79216376807661_1_alg».proof.Proof.Gen.KernelIdeal.Skeleton
import proofs.«127212_j79216376807661_1_alg».proof.Proof.EdgeMlp
import proofs.«127212_j79216376807661_1_alg».proof.Proof.LibRowRead

noncomputable section

namespace Cert.PayloadEntry

open Idealize.ShloMosaic Idealize.ShloMosaic.ValueIdx Cert.KernelIdeal Cert.KernelIdeal.Gen

/-! ## The index maps of the two products

Each product contracts axis 1 of its left operand with axis 0 of its right operand and has no batch axis: the left
operand is read at (row of the result, contracted index), the right one at (contracted index, lane of the result). -/

theorem dotA_l0 (i : S6400x64.Idx) (q : dot_S6400x129_S129x64_S6400x64_1_0_0_1_n_n.contr.Idx) : (dot_S6400x129_S129x64_S6400x64_1_0_0_1_n_n.lhsIdx i q 0).val = (i 0).val := by
  unfold DotDims.lhsIdx
  rw [dif_neg (show ¬(0 : Fin S6400x129.rank) ∈ dot_S6400x129_S129x64_S6400x64_1_0_0_1_n_n.lhsBatch by decide),
    dif_pos (show (0 : Fin S6400x129.rank) ∈ dot_S6400x129_S129x64_S6400x64_1_0_0_1_n_n.lhsNonContracting by decide)]
  rfl
theorem dotA_l1 (i : S6400x64.Idx) (q : dot_S6400x129_S129x64_S6400x64_1_0_0_1_n_n.contr.Idx) : (dot_S6400x129_S129x64_S6400x64_1_0_0_1_n_n.lhsIdx i q 1).val = (q ⟨0, by decide⟩).val :=
  dot_S6400x129_S129x64_S6400x64_1_0_0_1_n_n.lhsIdx_val_of_single rfl i q
theorem dotA_r0 (i : S6400x64.Idx) (q : dot_S6400x129_S129x64_S6400x64_1_0_0_1_n_n.contr.Idx) : (dot_S6400x129_S129x64_S6400x64_1_0_0_1_n_n.rhsIdx i q 0).val = (q ⟨0, by decide⟩).val :=
  dot_S6400x129_S129x64_S6400x64_1_0_0_1_n_n.rhsIdx_val_of_single rfl i q
theorem dotA_r1 (i : S6400x64.Idx) (q : dot_S6400x129_S129x64_S6400x64_1_0_0_1_n_n.contr.Idx) : (dot_S6400x129_S129x64_S6400x64_1_0_0_1_n_n.rhsIdx i q 1).val = (i 1).val := by
  unfold DotDims.rhsIdx
  rw [dif_neg (show ¬(1 : Fin S129x64.rank) ∈ dot_S6400x129_S129x64_S6400x64_1_0_0_1_n_n.rhsBatch by decide),
    dif_pos (show (1 : Fin S129x64.rank) ∈ dot_S6400x129_S129x64_S6400x64_1_0_0_1_n_n.rhsNonContracting by decide)]
  rfl

theorem dotB_l0 (i : S6400x64.Idx) (q : dot_S6400x64_S64x64_S6400x64_1_0_0_1_n_n.contr.Idx) : (dot_S6400x64_S64x64_S6400x64_1_0_0_1_n_n.lhsIdx i q 0).val = (i 0).val := by
  unfold DotDims.lhsIdx
  rw [dif_neg (show ¬(0 : Fin S6400x64.rank) ∈ dot_S6400x64_S64x64_S6400x64_1_0_0_1_n_n.lhsBatch by decide),
    dif_pos (show (0 : Fin S6400x64.rank) ∈ dot_S6400x64_S64x64_S6400x64_1_0_0_1_n_n.lhsNonContracting by decide)]
  rfl
theorem dotB_l1 (i : S6400x64.Idx) (q : dot_S6400x64_S64x64_S6400x64_1_0_0_1_n_n.contr.Idx) : (dot_S6400x64_S64x64_S6400x64_1_0_0_1_n_n.lhsIdx i q 1).val = (q ⟨0, by decide⟩).val :=
  dot_S6400x64_S64x64_S6400x64_1_0_0_1_n_n.lhsIdx_val_of_single rfl i q
theorem dotB_r0 (i : S6400x64.Idx) (q : dot_S6400x64_S64x64_S6400x64_1_0_0_1_n_n.contr.Idx) : (dot_S6400x64_S64x64_S6400x64_1_0_0_1_n_n.rhsIdx i q 0).val = (q ⟨0, by decide⟩).val :=
  dot_S6400x64_S64x64_S6400x64_1_0_0_1_n_n.rhsIdx_val_of_single rfl i q
theorem dotB_r1 (i : S6400x64.Idx) (q : dot_S6400x64_S64x64_S6400x64_1_0_0_1_n_n.contr.Idx) : (dot_S6400x64_S64x64_S6400x64_1_0_0_1_n_n.rhsIdx i q 1).val = (i 1).val := by
  unfold DotDims.rhsIdx
  rw [dif_neg (show ¬(1 : Fin S64x64.rank) ∈ dot_S6400x64_S64x64_S6400x64_1_0_0_1_n_n.rhsBatch by decide),
    dif_pos (show (1 : Fin S64x64.rank) ∈ dot_S6400x64_S64x64_S6400x64_1_0_0_1_n_n.rhsNonContracting by decide)]
  rfl

/-- The first product, of the block of features with the first weight matrix, at (p, k). -/
theorem first_product (x0 : Vec Ideal S6400x129 .f32) (x1 : Vec Ideal S129x64 .f32) (p : Fin 6400) (k : Fin 64) :
    matmul (F := Ideal) dot_S6400x129_S129x64_S6400x64_1_0_0_1_n_n none (truncf .bf16 (shapeCast S6400x129 x0 shapeCasts_S6400x129_S6400x129) bitsLt_bf16_f32)
        (truncf .bf16 x1 bitsLt_bf16_f32) (constant S6400x64 .f32 0x00000000#32) (ix2 p k)
      = ∑ j : Fin 129, x0 (ix2 p j) * x1 (ix2 j k) := by
  refine (Cert.Lib.RowRead.matmul_zero_apply dot_S6400x129_S129x64_S6400x64_1_0_0_1_n_n rfl rfl dotA_l0 dotA_l1 dotA_r0 dotA_r1 none _ _ p k).trans ?_
  rw [shapeCast_self]
  rfl

/-! ## The hidden activation -/

/-- The left operand of the second product: the first product plus the first bias row, rectified, in the product's
    operand format. -/
def hidden (x0 : Vec Ideal S6400x129 .f32) (x1 : Vec Ideal S129x64 .f32) (x2 : Vec Ideal S1x64 .f32) :
    FVec Ideal S6400x64 .bf16 :=
  truncf .bf16
    (maximumf
      (addf
        (matmul (F := Ideal) dot_S6400x129_S129x64_S6400x64_1_0_0_1_n_n none
          (truncf .bf16 (shapeCast S6400x129 x0 shapeCasts_S6400x129_S6400x129) bitsLt_bf16_f32)
          (truncf .bf16 x1 bitsLt_bf16_f32) (constant S6400x64 .f32 0x00000000#32))
        (broadcastTo S6400x64 (shapeCast S1x64 x2 shapeCasts_S1x64_S1x64) broadcasts_S1x64_S6400x64))
      (broadcast S6400x64 (Scalar.ofBits .f32 0x00000000#32)))
    bitsLt_bf16_f32

/-- The hidden activation at (p, k): the first affine form of row p, rectified. -/
theorem hidden_apply (x0 : Vec Ideal S6400x129 .f32) (x1 : Vec Ideal S129x64 .f32) (x2 : Vec Ideal S1x64 .f32)
    (p : Fin 6400) (k : Fin 64) :
    hidden x0 x1 x2 (ix2 p k) = max ((∑ j : Fin 129, x0 (ix2 p j) * x1 (ix2 j k)) + x2 (ix2 (0 : Fin 1) k)) 0 := by
  show max (matmul (F := Ideal) dot_S6400x129_S129x64_S6400x64_1_0_0_1_n_n none
          (truncf .bf16 (shapeCast S6400x129 x0 shapeCasts_S6400x129_S6400x129) bitsLt_bf16_f32)
          (truncf .bf16 x1 bitsLt_bf16_f32) (constant S6400x64 .f32 0x00000000#32) (ix2 p k)
        + broadcastTo S6400x64 (shapeCast S1x64 x2 shapeCasts_S1x64_S1x64) broadcasts_S1x64_S6400x64 (ix2 p k))
      (Ideal.ofBits .f32 0x00000000#32) = _
  rw [first_product, shapeCast_self, broadcastTo_1b_ab_apply, Ideal.ofBits_zero_f32]

/-! ## The stored value -/

/-- The stored value is the second product, of the hidden activations with the second weight matrix, plus the second
    bias row. -/
theorem k0_pay1_eq (x0 : Vec Ideal S6400x129 .f32) (x1 : Vec Ideal S129x64 .f32) (x2 : Vec Ideal S1x64 .f32)
    (x3 : Vec Ideal S64x64 .f32) (x4 : Vec Ideal S1x64 .f32) :
    Cert.KernelIdeal.Gen.k0_pay1 (F := Ideal) x0 x1 x2 x3 x4
      = addf (matmul (F := Ideal) dot_S6400x64_S64x64_S6400x64_1_0_0_1_n_n none (hidden x0 x1 x2) (truncf .bf16 x3 bitsLt_bf16_f32)
            (constant S6400x64 .f32 0x00000000#32))
          (broadcastTo S6400x64 (shapeCast S1x64 x4 shapeCasts_S1x64_S1x64) broadcasts_S1x64_S6400x64) := rfl

/-- The stored value at (p, q) is entry q of the perceptron on row p of the block of features. -/
theorem k0_pay1_apply (x0 : Vec Ideal S6400x129 .f32) (x1 : Vec Ideal S129x64 .f32) (x2 : Vec Ideal S1x64 .f32)
    (x3 : Vec Ideal S64x64 .f32) (x4 : Vec Ideal S1x64 .f32) (p : Fin 6400) (q : Fin 64) :
    Cert.KernelIdeal.Gen.k0_pay1 (F := Ideal) x0 x1 x2 x3 x4 (ix2 p q)
      = Cert.EdgeMlp.entry (fun j => x0 (ix2 p j)) (fun j k => x1 (ix2 j k)) (fun k => x2 (ix2 (0 : Fin 1) k))
          (fun k q' => x3 (ix2 k q')) (fun q' => x4 (ix2 (0 : Fin 1) q')) q := by
  rw [k0_pay1_eq]
  show matmul (F := Ideal) dot_S6400x64_S64x64_S6400x64_1_0_0_1_n_n none (hidden x0 x1 x2) (truncf .bf16 x3 bitsLt_bf16_f32)
        (constant S6400x64 .f32 0x00000000#32) (ix2 p q)
      + broadcastTo S6400x64 (shapeCast S1x64 x4 shapeCasts_S1x64_S1x64) broadcasts_S1x64_S6400x64 (ix2 p q) = _
  rw [Cert.Lib.RowRead.matmul_zero_apply dot_S6400x64_S64x64_S6400x64_1_0_0_1_n_n rfl rfl dotB_l0 dotB_l1 dotB_r0 dotB_r1 none _ _ p q,
    shapeCast_self, broadcastTo_1b_ab_apply]
  unfold Cert.EdgeMlp.entry
  refine congrArg (· + x4 (ix2 (0 : Fin 1) q)) ?_
  exact Finset.sum_congr rfl fun k _ => by rw [hidden_apply]; rfl

end Cert.PayloadEntry

end
-- ==== Proof.RefMessages.lean ====
/-
  The reference's message array is the two-layer perceptron of its feature array.

  After the feature array (the concatenation of the two gathered node rows and the edge scalar) the reference computes
  a matrix product with the first weight matrix, adds the first bias broadcast along the edges, takes the maximum with
  the zero array, takes a matrix product with the second weight matrix and adds the second bias broadcast along the
  edges. Read at the edge `p` and the output feature `q`, at the ideal values, this is

      ( Σ_k  max ( (Σ_j X_{p,j} · W1_{j,k}) + b1_k , 0 ) · W2_{k,q} )  +  b2_q ,

  which is `Cert.EdgeMlp.messages` of the feature array. Each step below reads one operation of the reference at an
  index written by its coordinates.
-/
import proofs.«127212_j79216376807661_1_alg».proof.Proof.Gen.ReferenceIdeal.Read
import proofs.«127212_j79216376807661_1_alg».proof.Proof.EdgeMlp

noncomputable section

namespace Cert.RefMessages

open Cert.ReferenceIdeal Cert.ReferenceIdeal.Read Idealize.ShloMosaic Idealize.ShloMosaic.ValueIdx

/-- A bias broadcast first to one row and then along the edges, read at `(p, k)`, is the bias at `k`
    (the first layer's bias). -/
theorem v17_at (x5 : (⟨S64, .f32⟩ : BufTy).Contents (Elt Ideal)) (p : Fin 1600000) (k : Fin 64) :
    val_main_v17 (F := Ideal) x5 (ix2 p k) = x5 (ix1 k) := by
  rw [val_main_v17_apply, val_main_v16_apply]
  congr 1
  funext a
  match a with
  | ⟨0, _⟩ => rfl

/-- The same for the second layer's bias. -/
theorem v22_at (x7 : (⟨S64, .f32⟩ : BufTy).Contents (Elt Ideal)) (p : Fin 1600000) (q : Fin 64) :
    val_main_v22 (F := Ideal) x7 (ix2 p q) = x7 (ix1 q) := by
  rw [val_main_v22_apply, val_main_v21_apply]
  congr 1
  funext a
  match a with
  | ⟨0, _⟩ => rfl

/-- The zero array the rectifier compares with is the extended real `0` everywhere. -/
theorem call0_v0_at (i : S1600000x64.Idx) : val_main_call0_v0 (F := Ideal) i = 0 := by
  rw [val_main_call0_v0_apply, val_main_call0_cst_apply, Ideal.ofBits_def, Ideal.ofBits_zero_f32]

/-- The first matrix product at `(p, k)`: row `p` of the feature array against column `k` of the first weights. -/
theorem v15_at (x0 : (⟨S100000x64, .f32⟩ : BufTy).Contents (Elt Ideal)) (x1 : (⟨S1600000x1, .f32⟩ : BufTy).Contents (Elt Ideal))
    (x2 x3 : (⟨S1600000, .i32⟩ : BufTy).Contents (Elt Ideal)) (x4 : (⟨S129x64, .f32⟩ : BufTy).Contents (Elt Ideal))
    (p : Fin 1600000) (k : Fin 64) :
    val_main_v15 (F := Ideal) x0 x1 x2 x3 x4 (ix2 p k)
      = ∑ j : Fin 129, val_main_v14 (F := Ideal) x0 x1 x2 x3 (ix2 p j) * x4 (ix2 j k) := by
  rw [val_main_v15_apply]
  refine Finset.sum_congr rfl fun j _ => ?_
  have el : lidx_main_v15 (ix2 p k) j = ix2 p j := funext fun a => by
    match a with
    | ⟨0, _⟩ => rfl
    | ⟨1, _⟩ => rfl
  have er : ridx_main_v15 (ix2 p k) j = ix2 j k := funext fun a => by
    match a with
    | ⟨0, _⟩ => rfl
    | ⟨1, _⟩ => rfl
  rw [el, er]

/-- The hidden activation at `(p, k)`: the rectified first affine form. -/
theorem v19_at (x0 : (⟨S100000x64, .f32⟩ : BufTy).Contents (Elt Ideal)) (x1 : (⟨S1600000x1, .f32⟩ : BufTy).Contents (Elt Ideal))
    (x2 x3 : (⟨S1600000, .i32⟩ : BufTy).Contents (Elt Ideal)) (x4 : (⟨S129x64, .f32⟩ : BufTy).Contents (Elt Ideal))
    (x5 : (⟨S64, .f32⟩ : BufTy).Contents (Elt Ideal)) (p : Fin 1600000) (k : Fin 64) :
    val_main_v19 (F := Ideal) x0 x1 x2 x3 x4 x5 (ix2 p k)
      = max ((∑ j : Fin 129, val_main_v14 (F := Ideal) x0 x1 x2 x3 (ix2 p j) * x4 (ix2 j k)) + x5 (ix1 k)) 0 := by
  rw [val_main_v19_apply, val_main_v18_apply, v15_at, v17_at, call0_v0_at, Ideal.maximumf_def, Ideal.addf_def]

/-- The second matrix product at `(p, q)`: the hidden activations of edge `p` against column `q` of the second weights. -/
theorem v20_at (x0 : (⟨S100000x64, .f32⟩ : BufTy).Contents (Elt Ideal)) (x1 : (⟨S1600000x1, .f32⟩ : BufTy).Contents (Elt Ideal))
    (x2 x3 : (⟨S1600000, .i32⟩ : BufTy).Contents (Elt Ideal)) (x4 : (⟨S129x64, .f32⟩ : BufTy).Contents (Elt Ideal))
    (x5 : (⟨S64, .f32⟩ : BufTy).Contents (Elt Ideal)) (x6 : (⟨S64x64, .f32⟩ : BufTy).Contents (Elt Ideal))
    (p : Fin 1600000) (q : Fin 64) :
    val_main_v20 (F := Ideal) x0 x1 x2 x3 x4 x5 x6 (ix2 p q)
      = ∑ k : Fin 64,
          max ((∑ j : Fin 129, val_main_v14 (F := Ideal) x0 x1 x2 x3 (ix2 p j) * x4 (ix2 j k)) + x5 (ix1 k)) 0
            * x6 (ix2 k q) := by
  rw [val_main_v20_apply]
  refine Finset.sum_congr rfl fun k _ => ?_
  have el : lidx_main_v20 (ix2 p q) k = ix2 p k := funext fun a => by
    match a with
    | ⟨0, _⟩ => rfl
    | ⟨1, _⟩ => rfl
  have er : ridx_main_v20 (ix2 p q) k = ix2 k q := funext fun a => by
    match a with
    | ⟨0, _⟩ => rfl
    | ⟨1, _⟩ => rfl
  rw [el, er, v19_at]

/-- The reference's message array is `Cert.EdgeMlp.messages` of its feature array, the two weight matrices and the
    two biases. -/
theorem val_main_v23_eq_messages
    (x0 : (⟨S100000x64, .f32⟩ : BufTy).Contents (Elt Ideal)) (x1 : (⟨S1600000x1, .f32⟩ : BufTy).Contents (Elt Ideal))
    (x2 x3 : (⟨S1600000, .i32⟩ : BufTy).Contents (Elt Ideal)) (x4 : (⟨S129x64, .f32⟩ : BufTy).Contents (Elt Ideal))
    (x5 : (⟨S64, .f32⟩ : BufTy).Contents (Elt Ideal)) (x6 : (⟨S64x64, .f32⟩ : BufTy).Contents (Elt Ideal))
    (x7 : (⟨S64, .f32⟩ : BufTy).Contents (Elt Ideal)) :
    Cert.ReferenceIdeal.Read.val_main_v23 (F := Ideal) x0 x1 x2 x3 x4 x5 x6 x7
      = Cert.EdgeMlp.messages (Cert.ReferenceIdeal.Read.val_main_v14 (F := Ideal) x0 x1 x2 x3) x4 x5 x6 x7 := by
  funext i
  obtain ⟨p, q, rfl⟩ : ∃ (p : Fin 1600000) (q : Fin 64), i = ix2 p q := ⟨i 0, i 1, eq_ix2 i⟩
  rw [Cert.EdgeMlp.messages_apply, val_main_v23_apply, v20_at, v22_at, Ideal.addf_def]
  rfl

end Cert.RefMessages

end
-- ==== Proof.MessagesValue.lean ====
/-
  What the program computes, at the ideal values: the message array the region leaves, and the result after the
  scatter-add.

  Point t of the region stages rows 6400 t … 6400 t + 6399 of the feature array, the two weight matrices and the two
  bias rows whole, and writes back, as rows 6400 t … of the message array, the value the body stored: at (p, q), entry q
  of the two-layer perceptron on row p of the staged feature block, that is on row 6400 t + p of the feature array. The
  250 blocks tile the 1,600,000 rows (row r is in block r / 6400), so the message array ends, index by index, at the
  perceptron of the feature array's rows. The host operations after the region then add each message into the row of
  its destination node.
-/
import proofs.«127212_j79216376807661_1_alg».proof.Proof.AroundIdeal
import proofs.«127212_j79216376807661_1_alg».proof.Proof.PayloadEntry
import proofs.«127212_j79216376807661_1_alg».proof.Proof.EdgeMlp
import proofs.«127212_j79216376807661_1_alg».proof.Proof.Gen.ReferenceIdeal.Read
import proofs.«127212_j79216376807661_1_alg».proof.Proof.RefMessages
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Messages

open Cert.KernelIdeal Cert.KernelIdeal.Gen Cert.KernelIdeal.Around

variable (m : (ℓ : Loc nD τ sig) → Buf (Elt Ideal) ℓ) (ρ : Dev nD → PrngReg)

theorem zero_offsets : (![0, 0] : Fin 2 → Nat) = fun _ => 0 := funext fun a => by fin_cases a <;> rfl

/-- The printed index maps, decided once over the 250 grid points: the feature window and the message window are at
    block row t, block column 0; the four other windows are at block (0, 0) at every point. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The arrays the region stages, as it finds them, as plain functions of an index. -/
abbrev features (c : Dev nD) : S1600000x129.Idx → EReal := entry m c main_v14
abbrev weights1 (c : Dev nD) : S129x64.Idx → EReal := entry m c main_arg4
abbrev biasRow1 (c : Dev nD) : S1x64.Idx → EReal := entry m c main_v15
abbrev weights2 (c : Dev nD) : S64x64.Idx → EReal := entry m c main_arg6
abbrev biasRow2 (c : Dev nD) : S1x64.Idx → EReal := entry m c main_v16

/-! ## The staged blocks, read at an index -/

/-- Row p of the feature block at point t is row 6400 t + p of the feature array. -/
theorem featureBlock_apply (c : Dev nD) (t : Fin cfg0.N) (p : Fin 6400) (j : Fin 129) (r : Fin 1600000) (hr : r.val = 6400 * t.val + p.val) :
    (blockAt m c 0 t : S6400x129.Idx → EReal) (ix2 p j) = features m c (ix2 r j) := by
  obtain ⟨e0, e1, -⟩ := index_facts t
  unfold blockAt
  rw [View.read_apply]
  show entry m c main_v14 _ = entry m c main_v14 _
  congr 1
  funext a
  apply Fin.ext
  match a with
  | ⟨0, _⟩ => show win0_0.index t (0 : Fin 2) * 6400 + 1 * p.val = r.val; rw [e0, hr]; omega
  | ⟨1, _⟩ => show win0_0.index t (1 : Fin 2) * 129 + 1 * j.val = j.val; rw [e1]; omega

/-- The four windows that do not move with the point hold their whole array: the block's index is the array's. -/
theorem weights1Block_apply (c : Dev nD) (t : Fin cfg0.N) (j : Fin 129) (k : Fin 64) :
    (blockAt m c 1 t : S129x64.Idx → EReal) (ix2 j k) = weights1 m c (ix2 j k) := by
  obtain ⟨-, -, e0, e1, -⟩ := index_facts t
  unfold blockAt
  rw [View.read_apply]
  show entry m c main_arg4 _ = entry m c main_arg4 _
  congr 1
  funext a
  apply Fin.ext
  match a with
  | ⟨0, _⟩ => show win0_1.index t (0 : Fin 2) * 129 + 1 * j.val = j.val; rw [e0]; omega
  | ⟨1, _⟩ => show win0_1.index t (1 : Fin 2) * 64 + 1 * k.val = k.val; rw [e1]; omega

theorem biasRow1Block_apply (c : Dev nD) (t : Fin cfg0.N) (k : Fin 64) :
    (blockAt m c 2 t : S1x64.Idx → EReal) (ix2 (0 : Fin 1) k) = biasRow1 m c (ix2 (0 : Fin 1) k) := by
  obtain ⟨-, -, -, -, e0, e1, -⟩ := index_facts t
  unfold blockAt
  rw [View.read_apply]
  show entry m c main_v15 _ = entry m c main_v15 _
  congr 1
  funext a
  apply Fin.ext
  match a with
  | ⟨0, _⟩ => show win0_2.index t (0 : Fin 2) * 1 + 1 * 0 = 0; rw [e0]
  | ⟨1, _⟩ => show win0_2.index t (1 : Fin 2) * 64 + 1 * k.val = k.val; rw [e1]; omega

theorem weights2Block_apply (c : Dev nD) (t : Fin cfg0.N) (k : Fin 64) (q : Fin 64) :
    (blockAt m c 3 t : S64x64.Idx → EReal) (ix2 k q) = weights2 m c (ix2 k q) := by
  obtain ⟨-, -, -, -, -, -, e0, e1, -⟩ := index_facts t
  unfold blockAt
  rw [View.read_apply]
  show entry m c main_arg6 _ = entry m c main_arg6 _
  congr 1
  funext a
  apply Fin.ext
  match a with
  | ⟨0, _⟩ => show win0_3.index t (0 : Fin 2) * 64 + 1 * k.val = k.val; rw [e0]; omega
  | ⟨1, _⟩ => show win0_3.index t (1 : Fin 2) * 64 + 1 * q.val = q.val; rw [e1]; omega

theorem biasRow2Block_apply (c : Dev nD) (t : Fin cfg0.N) (q : Fin 64) :
    (blockAt m c 4 t : S1x64.Idx → EReal) (ix2 (0 : Fin 1) q) = biasRow2 m c (ix2 (0 : Fin 1) q) := by
  obtain ⟨-, -, -, -, -, -, -, -, e0, e1, -⟩ := index_facts t
  unfold blockAt
  rw [View.read_apply]
  show entry m c main_v16 _ = entry m c main_v16 _
  congr 1
  funext a
  apply Fin.ext
  match a with
  | ⟨0, _⟩ => show win0_4.index t (0 : Fin 2) * 1 + 1 * 0 = 0; rw [e0]
  | ⟨1, _⟩ => show win0_4.index t (1 : Fin 2) * 64 + 1 * q.val = q.val; rw [e1]; omega

/-! ## The message array -/

/-- The perceptron's entry depends on its five arguments only through their values. -/
theorem entry_congr {x x' : Fin 129 → EReal} {W1 W1' : Fin 129 → Fin 64 → EReal} {b1 b1' : Fin 64 → EReal}
    {W2 W2' : Fin 64 → Fin 64 → EReal} {b2 b2' : Fin 64 → EReal} (q : Fin 64)
    (hx : x = x') (hW1 : W1 = W1') (hb1 : b1 = b1') (hW2 : W2 = W2') (hb2 : b2 = b2') :
    Cert.EdgeMlp.entry x W1 b1 W2 b2 q = Cert.EdgeMlp.entry x' W1' b1' W2' b2' q := by
  subst hx hW1 hb1 hW2 hb2; rfl

/-- The stored value at (p, q), for ANY blocks that agree with five arrays where the body reads them (row p of the
    feature block is row r of the feature array; the other four blocks are their arrays), is the message of edge r at
    feature q. Stated over variables: the arrays the region finds are instantiated only where this is used. -/
theorem stored_is_message (X : S1600000x129.Idx → EReal) (W1 : S129x64.Idx → EReal) (B1 : S1x64.Idx → EReal)
    (W2 : S64x64.Idx → EReal) (B2 : S1x64.Idx → EReal)
    (x0 : Vec Ideal S6400x129 .f32) (x1 : Vec Ideal S129x64 .f32) (x2 : Vec Ideal S1x64 .f32) (x3 : Vec Ideal S64x64 .f32)
    (x4 : Vec Ideal S1x64 .f32) (r : Fin 1600000) (p : Fin 6400) (q : Fin 64)
    (h0 : ∀ j : Fin 129, x0 (ix2 p j) = X (ix2 r j)) (h1 : ∀ (j : Fin 129) (k : Fin 64), x1 (ix2 j k) = W1 (ix2 j k))
    (h2 : ∀ k : Fin 64, x2 (ix2 (0 : Fin 1) k) = B1 (ix2 (0 : Fin 1) k))
    (h3 : ∀ (k : Fin 64) (q' : Fin 64), x3 (ix2 k q') = W2 (ix2 k q'))
    (h4 : ∀ q' : Fin 64, x4 (ix2 (0 : Fin 1) q') = B2 (ix2 (0 : Fin 1) q')) :
    k0_pay1 (F := Ideal) x0 x1 x2 x3 x4 (ix2 p q)
      = Cert.EdgeMlp.messages X W1 (fun i => B1 (ix2 (0 : Fin 1) (i 0 : Fin 64))) W2 (fun i => B2 (ix2 (0 : Fin 1) (i 0 : Fin 64))) (ix2 r q) := by
  rw [Cert.PayloadEntry.k0_pay1_apply, Cert.EdgeMlp.messages_apply]
  exact entry_congr q (funext h0) (funext fun j => funext fun k => h1 j k) (funext h2) (funext fun k => funext fun q' => h3 k q') (funext h4)

/-- What the region leaves in the message array: the perceptron of the feature array's rows, with the weights and the
    bias rows as the region finds them. -/
abbrev regionMessages (c : Dev nD) : S1600000x64.Idx → EReal :=
  Cert.EdgeMlp.messages (features m c) (weights1 m c) (fun i => biasRow1 m c (ix2 (0 : Fin 1) (i 0 : Fin 64)))
    (weights2 m c) (fun i => biasRow2 m c (ix2 (0 : Fin 1) (i 0 : Fin 64)))

/-- What point t writes back is block t of `regionMessages`. -/
theorem flushed_eq (c : Dev nD) (t : Fin cfg0.N) :
    (regionData m 0 c).flushed 5 t = ((cfg0.win 5).blk t).view.read (Elt Ideal) (regionMessages m c) := by
  show (cfg0.win 5).cut (grid0.coords t) ((regionData m 0 c).after 5 t) = _
  rw [after_5]
  unfold stored
  rw [View.canon_unit_zero zero_offsets]
  simp only [View.ld_unit_zero (S := S6400x129) zero_offsets, View.ld_unit_zero (S := S129x64) zero_offsets,
    View.ld_unit_zero (S := S1x64) zero_offsets, View.ld_unit_zero (S := S64x64) zero_offsets]
  funext j
  obtain ⟨p, q, rfl⟩ : ∃ (p : Fin 6400) (q : Fin 64), j = ix2 p q := ⟨j 0, j 1, eq_ix2 j⟩
  have hN : cfg0.N = 250 := N_0
  have hr : 6400 * t.val + p.val < 1600000 := by have := t.isLt; have := p.isLt; omega
  obtain ⟨-, -, -, -, -, -, -, -, -, -, e0, e1⟩ := index_facts t
  have he : ((cfg0.win 5).blk t).view.emb (ix2 p q) = (ix2 (⟨6400 * t.val + p.val, hr⟩ : Fin 1600000) q : S1600000x64.Idx) := by
    funext a
    apply Fin.ext
    match a with
    | ⟨0, _⟩ => show win0_5.index t (0 : Fin 2) * 6400 + 1 * p.val = 6400 * t.val + p.val; rw [e0]; omega
    | ⟨1, _⟩ => show win0_5.index t (1 : Fin 2) * 64 + 1 * q.val = q.val; rw [e1]; omega
  show k0_pay1 (F := Ideal) (blockAt m c 0 t) (blockAt m c 1 t) (blockAt m c 2 t) (blockAt m c 3 t) (blockAt m c 4 t) (ix2 p q)
    = regionMessages m c (((cfg0.win 5).blk t).view.emb (ix2 p q))
  rw [he]
  exact stored_is_message (features m c) (weights1 m c) (biasRow1 m c) (weights2 m c) (biasRow2 m c)
    (blockAt m c 0 t) (blockAt m c 1 t) (blockAt m c 2 t) (blockAt m c 3 t) (blockAt m c 4 t) ⟨6400 * t.val + p.val, hr⟩ p q
    (fun j => featureBlock_apply m c t p j ⟨6400 * t.val + p.val, hr⟩ rfl) (fun j k => weights1Block_apply m c t j k)
    (fun k => biasRow1Block_apply m c t k) (fun k q' => weights2Block_apply m c t k q') (fun q' => biasRow2Block_apply m c t q')

/-- An index of the message array is in point t's block iff each coordinate is in the block's range on its axis. -/
theorem mem_block (t : Fin cfg0.N) (i : S1600000x64.Idx) :
    i ∈ ((cfg0.win 5).blk t).view.set ↔ ∀ a : Fin 2, win0_5.index t a * S6400x64.size a ≤ (i a).val ∧ (i a).val < win0_5.index t a * S6400x64.size a + S6400x64.size a := by
  show i ∈ ((View.whole main_v17).slice (win0_5.rect t)).set ↔ _
  rw [View.set_slice_whole, Rect.mem_set_unit]
  exact Iff.rfl

/-- Every row of the message array is in some point's block: row r in the block of point r / 6400. -/
theorem covered (i : S1600000x64.Idx) : ∃ t : Fin cfg0.N, (cfg0.win 5).flush t = true ∧ i ∈ ((cfg0.win 5).blk t).view.set := by
  have hN : cfg0.N = 250 := N_0
  have h0 : (i 0).val < 1600000 := (i 0).isLt
  have h1 : (i 1).val < 64 := (i 1).isLt
  have ht : (i 0).val / 6400 < cfg0.N := by omega
  refine ⟨⟨(i 0).val / 6400, ht⟩, flush0_5 _, ?_⟩
  rw [mem_block]
  obtain ⟨-, -, -, -, -, -, -, -, -, -, e0, e1⟩ := index_facts ⟨(i 0).val / 6400, ht⟩
  intro a
  match a with
  | ⟨0, _⟩ =>
    show win0_5.index ⟨(i 0).val / 6400, ht⟩ (0 : Fin 2) * 6400 ≤ (i 0).val ∧ (i 0).val < win0_5.index ⟨(i 0).val / 6400, ht⟩ (0 : Fin 2) * 6400 + 6400
    rw [e0]; show (i 0).val / 6400 * 6400 ≤ (i 0).val ∧ (i 0).val < (i 0).val / 6400 * 6400 + 6400; omega
  | ⟨1, _⟩ =>
    show win0_5.index ⟨(i 0).val / 6400, ht⟩ (1 : Fin 2) * 64 ≤ (i 1).val ∧ (i 1).val < win0_5.index ⟨(i 0).val / 6400, ht⟩ (1 : Fin 2) * 64 + 64
    rw [e1]; omega

/-- So the message array ends at `regionMessages`. -/
theorem messages_final (c : Dev nD) : (regionData m 0 c).arrAt 5 cfg0.N = regionMessages m c :=
  (regionData m 0 c).arrAt_eq_of_cover 5 (regionMessages m c) (fun t _ => flushed_eq m c t) (covered)

/-! ## The arrays the region finds, from the arguments -/

/-- The feature array the region finds is the one the reference computes from the same four arguments: the same two
    row gathers (the indices wrapped the same way) and the same concatenation with the edge feature. -/
theorem features_eq (c : Dev nD) :
    features m c = Cert.ReferenceIdeal.Read.val_main_v14 (F := Ideal) (m ((c : Thread nD τ).loc main_arg0))
      (m ((c : Thread nD τ).loc main_arg1)) (m ((c : Thread nD τ).loc main_arg2)) (m ((c : Thread nD τ).loc main_arg3)) := by
  show StableHlo.after hostOps0 (fun b => m (c, b)) (Proc.devRef .tc main_v14) = _
  after_results
  rfl

/-- Each bias row is its bias vector cast to one row. -/
theorem biasRow1_eq (c : Dev nD) :
    biasRow1 m c = shapeCast S1x64 (m ((c : Thread nD τ).loc main_arg5) : S64.Idx → EReal) shapeCasts_S64_S1x64 := by
  show StableHlo.after hostOps0 (fun b => m (c, b)) (Proc.devRef .tc main_v15) = _
  after_results
  rfl
theorem biasRow2_eq (c : Dev nD) :
    biasRow2 m c = shapeCast S1x64 (m ((c : Thread nD τ).loc main_arg7) : S64.Idx → EReal) shapeCasts_S64_S1x64 := by
  show StableHlo.after hostOps0 (fun b => m (c, b)) (Proc.devRef .tc main_v16) = _
  after_results
  rfl

/-- So lane k of a bias row is entry k of the bias vector. -/
theorem biasRow1_at (c : Dev nD) (k : Fin 64) :
    biasRow1 m c (ix2 (0 : Fin 1) k) = (m ((c : Thread nD τ).loc main_arg5) : S64.Idx → EReal) (ix1 k) := by
  rw [biasRow1_eq]; exact shapeCast_a_1a_apply _ _ 0 k
theorem biasRow2_at (c : Dev nD) (k : Fin 64) :
    biasRow2 m c (ix2 (0 : Fin 1) k) = (m ((c : Thread nD τ).loc main_arg7) : S64.Idx → EReal) (ix1 k) := by
  rw [biasRow2_eq]; exact shapeCast_a_1a_apply _ _ 0 k

/-- The message array the region leaves, in terms of the arguments: the perceptron, with the two weight matrices and
    the two bias vectors as launched, of the feature array the reference computes. -/
theorem regionMessages_eq (c : Dev nD) :
    regionMessages m c = Cert.EdgeMlp.messages
      (Cert.ReferenceIdeal.Read.val_main_v14 (F := Ideal) (m ((c : Thread nD τ).loc main_arg0))
        (m ((c : Thread nD τ).loc main_arg1)) (m ((c : Thread nD τ).loc main_arg2)) (m ((c : Thread nD τ).loc main_arg3)))
      (m ((c : Thread nD τ).loc main_arg4)) (m ((c : Thread nD τ).loc main_arg5))
      (m ((c : Thread nD τ).loc main_arg6)) (m ((c : Thread nD τ).loc main_arg7)) := by
  have e1 : (fun i : S64.Idx => biasRow1 m c (ix2 (0 : Fin 1) (i 0 : Fin 64))) = m ((c : Thread nD τ).loc main_arg5) :=
    funext fun i => (biasRow1_at m c (i 0)).trans (congrArg _ (eq_ix1 i).symm)
  have e2 : (fun i : S64.Idx => biasRow2 m c (ix2 (0 : Fin 1) (i 0 : Fin 64))) = m ((c : Thread nD τ).loc main_arg7) :=
    funext fun i => (biasRow2_at m c (i 0)).trans (congrArg _ (eq_ix1 i).symm)
  show Cert.EdgeMlp.messages (features m c) (weights1 m c) (fun i : S64.Idx => biasRow1 m c (ix2 (0 : Fin 1) (i 0 : Fin 64)))
    (weights2 m c) (fun i : S64.Idx => biasRow2 m c (ix2 (0 : Fin 1) (i 0 : Fin 64))) = _
  rw [e1, e2, features_eq, show weights1 m c = m ((c : Thread nD τ).loc main_arg4) from entry_arg4 m c,
    show weights2 m c = m ((c : Thread nD τ).loc main_arg6) from entry_arg6 m c]

/-! ## The result -/

/-- The program's result on core c: starting from the zero array, every message added into the row of its
    destination node (the destination indices as launched). -/
abbrev result (c : Dev nD) : S100000x64.Idx → EReal :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 (m ((c : Thread nD τ).loc main_arg3)))
    (regionMessages m c)

/-- What the operations after the region leave in the result buffer: they read the destination indices, which no one
    wrote, and the message array, which holds `regionMessages`. -/
theorem result_eq (c : Dev nD) :
    Pipeline.afterTail₀ cfgs (regionData m) 0 (entry₀ m) [hostOps1] c main_v20 = result m c := by
  unfold Pipeline.afterTail₀
  show StableHlo.after hostOps1 _ (Proc.devRef .tc main_v20) = _
  after_results
  have ha : Pipeline.withArrays (cfgs 0).spec c (entry₀ m c) (fun w => (regionData m 0 c).arrAt w (cfgs 0).N) (Proc.devRef .tc main_arg3)
      = m ((c : Thread nD τ).loc main_arg3) :=
    (Pipeline.withArrays_of_ne _ c _ _ main_arg3 (by exact (by decide : ∀ w, Pipeline.arrRef spec0 w ≠ main_arg3))).trans (entry_arg3 m c)
  have hb : Pipeline.withArrays (cfgs 0).spec c (entry₀ m c) (fun w => (regionData m 0 c).arrAt w (cfgs 0).N) (Proc.devRef .tc main_v17)
      = regionMessages m c :=
    (Pipeline.withArrays_arr spec0 launch0.win.arr_inj c _ _ 5).trans (messages_final m c)
  rw [ha, hb]

/-- The run, read: every weakly fair execution terminates with the result buffer at `result` and the eight argument
    arrays as launched. -/
theorem run : θ_run defs (onTc (τ := τ) (main (F := Ideal))) ⟨m, fun _ => 0, ρ⟩ fun r => ∀ c : Dev nD,
      r.2.mem ((c.tc : Thread nD τ).loc main_v20) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c =>
      ⟨((h c).2 main_v20 (Pipeline.mem_restRefs_of main_v20 (by decide) (by decide))).trans (result_eq m c),
        kept_of_post m (regionData m) (regionData_A m) r h c⟩)
    (run_main m ρ)

/-- The result is the reference's result stage at the same arguments: the same scatter-add (from the zero array, at the
    destination indices as launched) of the same message array. -/
theorem result_eq_reference (c : Dev nD) :
    result m c = Cert.ReferenceIdeal.Read.val_main_v26 (F := Ideal) (m ((c : Thread nD τ).loc main_arg0))
      (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6))
      (m ((c : Thread nD τ).loc main_arg7)) := by
  unfold Cert.ReferenceIdeal.Read.val_main_v26
  rw [Cert.RefMessages.val_main_v23_eq_messages, ← regionMessages_eq m c]
  unfold Cert.ReferenceIdeal.Read.val_main_v24 Cert.ReferenceIdeal.Read.val_main_v25 Cert.ReferenceIdeal.Read.val_main_cst
  rfl

end Cert.KernelIdeal.Messages

end
-- ==== Proof.lean ====
/-
  An edge-convolution layer: the kernel's program and its reference compute the same array on the extended reals.

  Both programs first build, for each of the 1,600,000 edges, a row of 129 features — the 64 features of the edge's
  source node, the 64 of its destination node, and the edge's own scalar — by the same two row gathers (the indices
  wrapped the same way) and the same concatenation. Both then send every row through a two-layer perceptron,

      message_{p,q} = ( Σ_k  max ( (Σ_j x_{p,j} · W1_{j,k}) + b1_k , 0 ) · W2_{k,q} )  +  b2_q ,

  and both finally add every message into the row of its destination node, starting from the zero array. They differ
  only in how the perceptron is arranged: the reference applies two whole-array matrix products, the kernel walks the
  edges in 250 blocks of 6400 rows, rounding its operands to a narrower format on the way into each product. On the
  extended reals a change of format is the identity and a matrix product is the plain sum of products, so each row's
  message is the same sum on both sides, term for term: no rearrangement of a sum and no distributive law is used,
  and so the finiteness of the inputs is never needed.

  The kernel's message array is read off its run block by block (each block written back is the perceptron of the
  rows it staged, and the 250 blocks tile the array); the reference's is read one operation at a time. The feature
  array going in and the scatter-add coming out are the same operations on both sides and are never opened.

  The three frames: each program terminates on every weakly fair execution, faults nowhere, and leaves its eight
  argument arrays as launched — no host operation writes an argument, and the region writes only the message array.
  The idealization rewrote no operation of the kernel, so there is nothing to preserve beyond the program's own text.
-/
import proofs.«127212_j79216376807661_1_alg».proof.Defs
import proofs.«127212_j79216376807661_1_alg».proof.Proof.Gen.Kernel
import proofs.«127212_j79216376807661_1_alg».proof.Proof.Gen.KernelIdeal
import proofs.«127212_j79216376807661_1_alg».proof.Proof.Gen.ReferenceIdeal
import proofs.«127212_j79216376807661_1_alg».proof.Proof.Gen.ReferenceIdeal.Run
import proofs.«127212_j79216376807661_1_alg».proof.Proof.Gen.ReferenceIdeal.Read
import proofs.«127212_j79216376807661_1_alg».proof.Proof.Gen.Pre_finite_inputs
import proofs.«127212_j79216376807661_1_alg».proof.Proof.AroundBits
import proofs.«127212_j79216376807661_1_alg».proof.Proof.AroundIdeal
import proofs.«127212_j79216376807661_1_alg».proof.Proof.MessagesValue
import Idealize.ShloMosaic.Adequacy
import Idealize.ShloMosaic.Init

noncomputable section

namespace Cert.Proof

open Idealize.ShloMosaic Idealize.ShloMosaic.TcCoe Idealize.SL.Sem

/-- The kernel's program as printed: it runs to the end and its arguments end as launched. -/
theorem frame_kernel : Cert.frame_Kernel := fun m ρ _ => Cert.Kernel.Around.frame m ρ

/-- The same of the idealized kernel's program. -/
theorem frame_kernelIdeal : Cert.frame_KernelIdeal := fun m ρ _ => Cert.KernelIdeal.Around.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments, both programs end with the scatter-add of the same message array: the
    kernel's is the perceptron of the rows of the feature array (read off its run), the reference's is the same function
    of the same feature array (read one operation at a time). -/
theorem algebraic : Cert.algebraic_KernelIdeal_ReferenceIdeal := by
  intro m ρ m' ρ' _ hagree
  refine ⟨fun c => Cert.KernelIdeal.Messages.result m c, Cert.KernelIdeal.Messages.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v26_eq, a0, a1, a2, a3, a4, a5, a6, a7]
  exact (Cert.KernelIdeal.Messages.result_eq_reference m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
